-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S3x512x256 : Shape := ⟨3, ![3, 512, 256]⟩
abbrev S3x800000 : Shape := ⟨2, ![3, 800000]⟩
abbrev S3 : Shape := ⟨1, ![3]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S3x512x256 : S_.BroadcastsInDim S3x512x256 (![] : Fin 0 → Fin S3x512x256.rank)
  reducesTo_S3x512x256_S_d0_1_2 : S3x512x256.ReducesTo [0, 1, 2] S_
  bcast_S_S3x800000 : S_.BroadcastsInDim S3x800000 (![] : Fin 0 → Fin S3x800000.rank)
  reducesTo_S3x800000_S_d0_1 : S3x800000.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S50000x512 .f32) (main_arg1 : FVec F S3x512x256 .f32) (main_arg2 : IVec S3x800000 32) (main_arg3 : IVec S3x800000 32) (main_arg4 : FVec F S3x800000 .f32) (main_arg5 : FVec F S3 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S3x512x256 .f32 := Host.absf main_arg1
  let main_cst_0 : FVec F S_ .f32 := constant S_ .f32 0x7F800000#32
  let main_v5 : FVec F S3x512x256 .f32 := broadcastInDim S3x512x256 ![] bcast_S_S3x512x256 main_cst_0
  let main_v6 : IVec S3x512x256 1 := cmpf .olt main_v4 main_v5
  let main_c_1 : IVec S_ 1 := constantI S_ 1 1#1
  let main_v7 : IVec S_ 1 := (fun x v => Host.reduce IntOp.andi x v reducesTo_S3x512x256_S_d0_1_2 h_S_) main_v6 main_c_1
  let main_v8 : IVec S_ 1 := andi main_v3 main_v7
  let main_v9 : FVec F S3x800000 .f32 := Host.absf main_arg4
  let main_cst_2 : FVec F S_ .f32 := constant S_ .f32 0x7F800000#32
  let main_v10 : FVec F S3x800000 .f32 := broadcastInDim S3x800000 ![] bcast_S_S3x800000 main_cst_2
  let main_v11 : IVec S3x800000 1 := cmpf .olt main_v9 main_v10
  let main_c_3 : IVec S_ 1 := constantI S_ 1 1#1
  let main_v12 : IVec S_ 1 := (fun x v => Host.reduce IntOp.andi x v reducesTo_S3x800000_S_d0_1 h_S_) main_v11 main_c_3
  let main_v13 : IVec S_ 1 := andi main_v8 main_v12
  let main_v14 : FVec F S3 .f32 := Host.absf main_arg5
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S50000x512 : Shape := ⟨2, ![50000, 512]⟩
abbrev S3x512x256 : Shape := ⟨3, ![3, 512, 256]⟩
abbrev S3x800000 : Shape := ⟨2, ![3, 800000]⟩
abbrev S3 : Shape := ⟨1, ![3]⟩
abbrev S3x50000x256 : Shape := ⟨3, ![3, 50000, 256]⟩
abbrev S2000x512 : Shape := ⟨2, ![2000, 512]⟩
abbrev S3x2000x256 : Shape := ⟨3, ![3, 2000, 256]⟩
abbrev S1x512x256 : Shape := ⟨3, ![1, 512, 256]⟩
abbrev S512x256 : Shape := ⟨2, ![512, 256]⟩
abbrev S2000x256 : Shape := ⟨2, ![2000, 256]⟩
abbrev S1x2000x256 : Shape := ⟨3, ![1, 2000, 256]⟩
abbrev S_ : Shape := ⟨0, ![]⟩
abbrev S50000x256 : Shape := ⟨2, ![50000, 256]⟩
abbrev S1 : Shape := ⟨1, ![1]⟩
abbrev S1x800000 : Shape := ⟨2, ![1, 800000]⟩
abbrev S800000 : Shape := ⟨1, ![800000]⟩
abbrev S800000x1 : Shape := ⟨2, ![800000, 1]⟩
abbrev S1x50000x256 : Shape := ⟨3, ![1, 50000, 256]⟩
abbrev S800000x256 : Shape := ⟨2, ![800000, 256]⟩

abbrev nBuf : Space → Nat
  | .hbm => 99
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S3x512x256, .f32⟩
  | .hbm, ⟨2, _⟩ => ⟨S3x800000, .i32⟩
  | .hbm, ⟨3, _⟩ => ⟨S3x800000, .i32⟩
  | .hbm, ⟨4, _⟩ => ⟨S3x800000, .f32⟩
  | .hbm, ⟨5, _⟩ => ⟨S3, .f32⟩
  | .hbm, ⟨6, _⟩ => ⟨S3x50000x256, .f32⟩
  | .hbm, ⟨7, _⟩ => ⟨S_, .f32⟩
  | .hbm, ⟨8, _⟩ => ⟨S50000x256, .f32⟩
  | .hbm, ⟨9, _⟩ => ⟨S1, .f32⟩
  | .hbm, ⟨10, _⟩ => ⟨S_, .f32⟩
  | .hbm, ⟨11, _⟩ => ⟨S1x800000, .f32⟩
  | .hbm, ⟨12, _⟩ => ⟨S800000, .f32⟩
  | .hbm, ⟨13, _⟩ => ⟨S800000, .f32⟩
  | .hbm, ⟨14, _⟩ => ⟨S800000, .f32⟩
  | .hbm, ⟨15, _⟩ => ⟨S800000x1, .f32⟩
  | .hbm, ⟨16, _⟩ => ⟨S1x50000x256, .f32⟩
  | .hbm, ⟨17, _⟩ => ⟨S50000x256, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x256, .f32⟩
  | .hbm, ⟨29, _⟩ => ⟨S800000x256, .f32⟩
  | .hbm, ⟨30, _⟩ => ⟨S800000x256, .f32⟩
  | .hbm, ⟨31, _⟩ => ⟨S1x800000, .i32⟩
  | .hbm, ⟨32, _⟩ => ⟨S800000, .i32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S50000x256, .f32⟩
  | .hbm, ⟨38, _⟩ => ⟨S1, .f32⟩
  | .hbm, ⟨39, _⟩ => ⟨S_, .f32⟩
  | .hbm, ⟨40, _⟩ => ⟨S1x800000, .f32⟩
  | .hbm, ⟨41, _⟩ => ⟨S800000, .f32⟩
  | .hbm, ⟨42, _⟩ => ⟨S800000, .f32⟩
  | .hbm, ⟨43, _⟩ => ⟨S800000, .f32⟩
  | .hbm, ⟨44, _⟩ => ⟨S800000x1, .f32⟩
  | .hbm, ⟨45, _⟩ => ⟨S1x50000x256, .f32⟩
  | .hbm, ⟨46, _⟩ => ⟨S50000x256, .f32⟩
  | .hbm, ⟨47, _⟩ => ⟨S1x800000, .i32⟩
  | .hbm, ⟨48, _⟩ => ⟨S800000, .i32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S800000x256, .f32⟩
  | .hbm, ⟨59, _⟩ => ⟨S800000x256, .f32⟩
  | .hbm, ⟨60, _⟩ => ⟨S1x800000, .i32⟩
  | .hbm, ⟨61, _⟩ => ⟨S800000, .i32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S50000x256, .f32⟩
  | .hbm, ⟨67, _⟩ => ⟨S1, .f32⟩
  | .hbm, ⟨68, _⟩ => ⟨S_, .f32⟩
  | .hbm, ⟨69, _⟩ => ⟨S1x800000, .f32⟩
  | .hbm, ⟨70, _⟩ => ⟨S800000, .f32⟩
  | .hbm, ⟨71, _⟩ => ⟨S800000, .f32⟩
  | .hbm, ⟨72, _⟩ => ⟨S800000, .f32⟩
  | .hbm, ⟨73, _⟩ => ⟨S800000x1, .f32⟩
  | .hbm, ⟨74, _⟩ => ⟨S1x50000x256, .f32⟩
  | .hbm, ⟨75, _⟩ => ⟨S50000x256, .f32⟩
  | .hbm, ⟨76, _⟩ => ⟨S1x800000, .i32⟩
  | .hbm, ⟨77, _⟩ => ⟨S800000, .i32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x256, .f32⟩
  | .hbm, ⟨87, _⟩ => ⟨S800000x256, .f32⟩
  | .hbm, ⟨88, _⟩ => ⟨S800000x256, .f32⟩
  | .hbm, ⟨89, _⟩ => ⟨S1x800000, .i32⟩
  | .hbm, ⟨90, _⟩ => ⟨S800000, .i32⟩
  | .hbm, ⟨91, _⟩ => ⟨S_, .f32⟩
  | .hbm, ⟨92, _⟩ => ⟨S50000x256, .f32⟩
  | .hbm, ⟨93, _⟩ => ⟨S800000x1, .i32⟩
  | .hbm, ⟨94, _⟩ => ⟨S50000x256, .f32⟩
  | .hbm, ⟨95, _⟩ => ⟨S50000x256, .f32⟩
  | .hbm, ⟨96, _⟩ => ⟨S_, .f32⟩
  | .hbm, ⟨97, _⟩ => ⟨S50000x256, .f32⟩
  | .hbm, ⟨98, _⟩ => ⟨S50000x256, .f32⟩
  | .local _ .vmem, ⟨0, _⟩ => ⟨S2000x512, .f32⟩
  | .local _ .vmem, ⟨1, _⟩ => ⟨S2000x512, .f32⟩
  | .local _ .vmem, ⟨2, _⟩ => ⟨S3x512x256, .f32⟩
  | .local _ .vmem, ⟨3, _⟩ => ⟨S3x2000x256, .f32⟩
  | .local _ .vmem, ⟨4, _⟩ => ⟨S3x2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_2 : Ref sig .tc := ⟨.hbm, 49, rfl⟩
abbrev main_v39 : Ref sig .tc := ⟨.hbm, 50, rfl⟩
abbrev main_v40 : Ref sig .tc := ⟨.hbm, 51, rfl⟩
abbrev main_c_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_c_5 : Ref sig .tc := ⟨.hbm, 78, rfl⟩
abbrev main_v65 : Ref sig .tc := ⟨.hbm, 79, rfl⟩
abbrev main_v66 : Ref sig .tc := ⟨.hbm, 80, rfl⟩
abbrev main_c_6 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_call0_cst : Ref sig .tc := ⟨.hbm, 96, rfl⟩
abbrev main_call0_v0 : Ref sig .tc := ⟨.hbm, 97, rfl⟩
abbrev main_v80 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S3x512x256_S1x512x256_0_0_0 : ∀ a, (![0, 0, 0] : Fin 3 → Nat) a + S1x512x256.size a ≤ S3x512x256.size a
  h_S1x512x256 : 0 < S1x512x256.numel
  shapeCasts_S1x512x256_S512x256 : S1x512x256.ShapeCasts S512x256
  inb_S3x2000x256_S1x2000x256_0_0_0 : ∀ a, (![0, 0, 0] : Fin 3 → Nat) a + S1x2000x256.size a ≤ S3x2000x256.size a
  h_S1x2000x256 : 0 < S1x2000x256.numel
  shapeCasts_S1x2000x256_S2000x256 : S1x2000x256.ShapeCasts S2000x256
  shapeCasts_S2000x256_S1x2000x256 : S2000x256.ShapeCasts S1x2000x256
  inb_S3x512x256_S1x512x256_1_0_0 : ∀ a, (![1, 0, 0] : Fin 3 → Nat) a + S1x512x256.size a ≤ S3x512x256.size a
  inb_S3x2000x256_S1x2000x256_1_0_0 : ∀ a, (![1, 0, 0] : Fin 3 → Nat) a + S1x2000x256.size a ≤ S3x2000x256.size a
  inb_S3x512x256_S1x512x256_2_0_0 : ∀ a, (![2, 0, 0] : Fin 3 → Nat) a + S1x512x256.size a ≤ S3x512x256.size a
  inb_S3x2000x256_S1x2000x256_2_0_0 : ∀ a, (![2, 0, 0] : Fin 3 → Nat) a + S1x2000x256.size a ≤ S3x2000x256.size a
  bcast_S_S50000x256 : S_.BroadcastsInDim S50000x256 (![] : Fin 0 → Fin S50000x256.rank)
  slices_S3_S1_0 : S3.Slices ![0] S1
  shapeCasts_S1_S_ : S1.ShapeCasts S_
  slices_S3x800000_S1x800000_0_0 : S3x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S3x50000x256_S1x50000x256_0_0_0 : S3x50000x256.Slices ![0, 0, 0] S1x50000x256
  shapeCasts_S1x50000x256_S50000x256 : S1x50000x256.ShapeCasts S50000x256
  bcast_S800000x1_S800000x256_0_1 : S800000x1.BroadcastsInDim S800000x256 (![0, 1] : Fin 2 → Fin S800000x256.rank)
  slices_S3_S1_1 : S3.Slices ![1] S1
  slices_S3x800000_S1x800000_1_0 : S3x800000.Slices ![1, 0] S1x800000
  slices_S3x50000x256_S1x50000x256_1_0_0 : S3x50000x256.Slices ![1, 0, 0] S1x50000x256
  slices_S3_S1_2 : S3.Slices ![2] S1
  slices_S3x800000_S1x800000_2_0 : S3x800000.Slices ![2, 0] S1x800000
  slices_S3x50000x256_S1x50000x256_2_0_0 : S3x50000x256.Slices ![2, 0, 0] S1x50000x256
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x512x256.size a ≤ S3x512x256.size a
  hwx0_1 : ∀ i : grid0.Coords, EltTy.bits .f32 = 32 ∨ (Rect.block (s := S3x512x256) S3x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x2000x256.size a ≤ S3x50000x256.size a
  hwx0_2 : ∀ i : grid0.Coords, EltTy.bits .f32 = 32 ∨ (Rect.block (s := S3x50000x256) S3x2000x256.size (cc0_transform_2 i) (hinb0_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S3x512x256 : Shape := ⟨3, ![3, 512, 256]⟩
abbrev S3x800000 : Shape := ⟨2, ![3, 800000]⟩
abbrev S3 : Shape := ⟨1, ![3]⟩
abbrev S_ : Shape := ⟨0, ![]⟩
abbrev S50000x256 : Shape := ⟨2, ![50000, 256]⟩
abbrev S1x512x256 : Shape := ⟨3, ![1, 512, 256]⟩
abbrev S512x256 : Shape := ⟨2, ![512, 256]⟩
abbrev S1 : Shape := ⟨1, ![1]⟩
abbrev S1x800000 : Shape := ⟨2, ![1, 800000]⟩
abbrev S800000 : Shape := ⟨1, ![800000]⟩
abbrev S800000x1 : Shape := ⟨2, ![800000, 1]⟩
abbrev S800000x256 : Shape := ⟨2, ![800000, 256]⟩

abbrev nBuf : Space → Nat
  | .hbm => 101
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S3x512x256, .f32⟩
  | .hbm, ⟨2, _⟩ => ⟨S3x800000, .i32⟩
  | .hbm, ⟨3, _⟩ => ⟨S3x800000, .i32⟩
  | .hbm, ⟨4, _⟩ => ⟨S3x800000, .f32⟩
  | .hbm, ⟨5, _⟩ => ⟨S3, .f32⟩
  | .hbm, ⟨6, _⟩ => ⟨S_, .f32⟩
  | .hbm, ⟨7, _⟩ => ⟨S50000x256, .f32⟩
  | .hbm, ⟨8, _⟩ => ⟨S1x512x256, .f32⟩
  | .hbm, ⟨9, _⟩ => ⟨S512x256, .f32⟩
  | .hbm, ⟨10, _⟩ => ⟨S50000x256, .f32⟩
  | .hbm, ⟨11, _⟩ => ⟨S1, .f32⟩
  | .hbm, ⟨12, _⟩ => ⟨S_, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S1x800000, .f32⟩
  | .hbm, ⟨18, _⟩ => ⟨S800000, .f32⟩
  | .hbm, ⟨19, _⟩ => ⟨S800000x1, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x256, .f32⟩
  | .hbm, ⟨29, _⟩ => ⟨S800000x256, .f32⟩
  | .hbm, ⟨30, _⟩ => ⟨S800000x256, .f32⟩
  | .hbm, ⟨31, _⟩ => ⟨S_, .f32⟩
  | .hbm, ⟨32, _⟩ => ⟨S50000x256, .f32⟩
  | .hbm, ⟨33, _⟩ => ⟨S800000x1, .i32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S1x512x256, .f32⟩
  | .hbm, ⟨39, _⟩ => ⟨S512x256, .f32⟩
  | .hbm, ⟨40, _⟩ => ⟨S50000x256, .f32⟩
  | .hbm, ⟨41, _⟩ => ⟨S1, .f32⟩
  | .hbm, ⟨42, _⟩ => ⟨S_, .f32⟩
  | .hbm, ⟨43, _⟩ => ⟨S1x800000, .i32⟩
  | .hbm, ⟨44, _⟩ => ⟨S800000, .i32⟩
  | .hbm, ⟨45, _⟩ => ⟨S1x800000, .i32⟩
  | .hbm, ⟨46, _⟩ => ⟨S800000, .i32⟩
  | .hbm, ⟨47, _⟩ => ⟨S1x800000, .f32⟩
  | .hbm, ⟨48, _⟩ => ⟨S800000, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S800000x256, .f32⟩
  | .hbm, ⟨60, _⟩ => ⟨S800000x256, .f32⟩
  | .hbm, ⟨61, _⟩ => ⟨S_, .f32⟩
  | .hbm, ⟨62, _⟩ => ⟨S50000x256, .f32⟩
  | .hbm, ⟨63, _⟩ => ⟨S800000x1, .i32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S1x512x256, .f32⟩
  | .hbm, ⟨69, _⟩ => ⟨S512x256, .f32⟩
  | .hbm, ⟨70, _⟩ => ⟨S50000x256, .f32⟩
  | .hbm, ⟨71, _⟩ => ⟨S1, .f32⟩
  | .hbm, ⟨72, _⟩ => ⟨S_, .f32⟩
  | .hbm, ⟨73, _⟩ => ⟨S1x800000, .i32⟩
  | .hbm, ⟨74, _⟩ => ⟨S800000, .i32⟩
  | .hbm, ⟨75, _⟩ => ⟨S1x800000, .i32⟩
  | .hbm, ⟨76, _⟩ => ⟨S800000, .i32⟩
  | .hbm, ⟨77, _⟩ => ⟨S1x800000, .f32⟩
  | .hbm, ⟨78, _⟩ => ⟨S800000, .f32⟩
  | .hbm, ⟨79, _⟩ => ⟨S800000x1, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x256, .f32⟩
  | .hbm, ⟨89, _⟩ => ⟨S800000x256, .f32⟩
  | .hbm, ⟨90, _⟩ => ⟨S800000x256, .f32⟩
  | .hbm, ⟨91, _⟩ => ⟨S_, .f32⟩
  | .hbm, ⟨92, _⟩ => ⟨S50000x256, .f32⟩
  | .hbm, ⟨93, _⟩ => ⟨S800000x1, .i32⟩
  | .hbm, ⟨94, _⟩ => ⟨S50000x256, .f32⟩
  | .hbm, ⟨95, _⟩ => ⟨S50000x256, .f32⟩
  | .hbm, ⟨96, _⟩ => ⟨S50000x256, .f32⟩
  | .hbm, ⟨97, _⟩ => ⟨S50000x256, .f32⟩
  | .hbm, ⟨98, _⟩ => ⟨S_, .f32⟩
  | .hbm, ⟨99, _⟩ => ⟨S50000x256, .f32⟩
  | .hbm, ⟨100, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_2 : Ref sig .tc := ⟨.hbm, 50, rfl⟩
abbrev main_v40 : Ref sig .tc := ⟨.hbm, 51, rfl⟩
abbrev main_v41 : Ref sig .tc := ⟨.hbm, 52, rfl⟩
abbrev main_c_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_c_5 : Ref sig .tc := ⟨.hbm, 80, rfl⟩
abbrev main_v67 : Ref sig .tc := ⟨.hbm, 81, rfl⟩
abbrev main_v68 : Ref sig .tc := ⟨.hbm, 82, rfl⟩
abbrev main_c_6 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_call0_cst : Ref sig .tc := ⟨.hbm, 98, rfl⟩
abbrev main_call0_v0 : Ref sig .tc := ⟨.hbm, 99, rfl⟩
abbrev main_v82 : Ref sig .tc := ⟨.hbm, 100, rfl⟩

abbrev nD : Nat := 1
abbrev τ : Topo := Topo.v7x

variable {F : FTy → Type} [FloatOps F]

class Facts₀ : Prop where
  bcast_S_S50000x256 : S_.BroadcastsInDim S50000x256 (![] : Fin 0 → Fin S50000x256.rank)
  slices_S3x512x256_S1x512x256_0_0_0 : S3x512x256.Slices ![0, 0, 0] S1x512x256
  shapeCasts_S1x512x256_S512x256 : S1x512x256.ShapeCasts S512x256
  slices_S3_S1_0 : S3.Slices ![0] S1
  shapeCasts_S1_S_ : S1.ShapeCasts S_
  slices_S3x800000_S1x800000_0_0 : S3x800000.Slices ![0, 0] S1x800000
  shapeCasts_S1x800000_S800000 : S1x800000.ShapeCasts S800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  slices_S3x512x256_S1x512x256_1_0_0 : S3x512x256.Slices ![1, 0, 0] S1x512x256
  slices_S3_S1_1 : S3.Slices ![1] S1
  slices_S3x800000_S1x800000_1_0 : S3x800000.Slices ![1, 0] S1x800000
  slices_S3x512x256_S1x512x256_2_0_0 : S3x512x256.Slices ![2, 0, 0] S1x512x256
  slices_S3_S1_2 : S3.Slices ![2] S1
  slices_S3x800000_S1x800000_2_0 : S3x800000.Slices ![2, 0] S1x800000
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KI.Data.lean ====
/-
  The proof data of the one pipeline of this program, at any float instance: the arrays as the region finds
  them (no host operation runs before the region, so they are the launch contents), each window's block at a grid
  point, the rectangles the body loads and stores through, and what the body leaves in the output window's buffer:
  its three stores, one per support, each the product of the point's 2000 rows of x with one 512×256 slab of W.
-/
import proofs.«136003_j11579231830756_2_alg».proof.Proof.Gen.KernelIdeal.Launch
import proofs.«136003_j11579231830756_2_alg».proof.Proof.Gen.KernelIdeal.Skeleton
import proofs.«136003_j11579231830756_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch contents (nothing runs before the region). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 2000×512 block of x. -/
abbrev rX : Rect S2000x512 := Rect.unit (s := S2000x512) ![0, 0] S2000x512.size inb_S2000x512_S2000x512_0_0
/-- Slab `s` of the 3×512×256 block of W. -/
abbrev rW0 : Rect S3x512x256 := Rect.unit (s := S3x512x256) ![0, 0, 0] S1x512x256.size inb_S3x512x256_S1x512x256_0_0_0
abbrev rW1 : Rect S3x512x256 := Rect.unit (s := S3x512x256) ![1, 0, 0] S1x512x256.size inb_S3x512x256_S1x512x256_1_0_0
abbrev rW2 : Rect S3x512x256 := Rect.unit (s := S3x512x256) ![2, 0, 0] S1x512x256.size inb_S3x512x256_S1x512x256_2_0_0
/-- Slab `s` of the 3×2000×256 output block. -/
abbrev rO0 : Rect S3x2000x256 := Rect.unit (s := S3x2000x256) ![0, 0, 0] S1x2000x256.size inb_S3x2000x256_S1x2000x256_0_0_0
abbrev rO1 : Rect S3x2000x256 := Rect.unit (s := S3x2000x256) ![1, 0, 0] S1x2000x256.size inb_S3x2000x256_S1x2000x256_1_0_0
abbrev rO2 : Rect S3x2000x256 := Rect.unit (s := S3x2000x256) ![2, 0, 0] S1x2000x256.size inb_S3x2000x256_S1x2000x256_2_0_0

/-- The output window's buffer after the body, from the two input blocks: its three stores as pieces, last first;
    slab `s` holds the payload of x's block and slab `s` of W's block. -/
def out0_2 (x0 : Vec F S2000x512 .f32) (x1 : Vec F S3x512x256 .f32) : Vec F S3x2000x256 .f32 :=
  View.canon [⟨rO2, k0_pay4 (View.ld x0 rX) (View.ld x1 rW2)⟩,
    ⟨rO1, k0_pay3 (View.ld x0 rX) (View.ld x1 rW1)⟩,
    ⟨rO0, k0_pay2 (View.ld x0 rX) (View.ld x1 rW0)⟩]

/-- The proof data of the pipeline on core `c`: the arrays as the region finds them; after the body at point `t`
    each input's buffer at its block and the output's at `out0_2` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = out0_2 (iblk m c 0 t) (iblk m c 1 t) := by dsimp only [dats]

end Cert.KernelIdeal.Fr

end
-- ==== Proof.KI.Frame.lean ====
/-
  The frame run of the kernel program, at any float instance: the program's entry function is its one pipelined
  region followed by host operations; the region's body reads a block of x and the three slabs of W and stores three
  slabs of the output block, which together tile it; the host operations after the region write only their own result
  buffers. So every weakly fair execution terminates, and the six argument arrays end as launched.
-/
import proofs.«136003_j11579231830756_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The host operations after the region allocate nothing. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 8000000 in
/-- The entry function is the region continued by the two stretches of host operations: nothing runs before the
    region, so it finds every buffer as launched. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [] [hostOps1, hostOps1_1] (by simp only [List.Forall])
    (by simp only [List.Forall]) main_chain

/-! ## The host operations after the region -/

/-- The operations after the region touch the pipeline's arrays and the buffers that bypass the region only: each
    operation's buffers are unscoped TensorCore references, and with nothing prefetched every such reference is one
    or the other. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- The buffers the frame speaks of: no operation after the region writes one of them. -/
def Keeps (op : HloOp τ sig (Elt F)) : Prop :=
  Proc.devRef .tc main_arg0 ∉ op.writes ∧ Proc.devRef .tc main_arg1 ∉ op.writes ∧ Proc.devRef .tc main_arg2 ∉ op.writes
    ∧ Proc.devRef .tc main_arg3 ∉ op.writes ∧ Proc.devRef .tc main_arg4 ∉ op.writes ∧ Proc.devRef .tc main_arg5 ∉ op.writes
    ∧ Proc.devRef .tc main_v0 ∉ op.writes

set_option maxHeartbeats 8000000 in
/-- Each operation of the first stretch writes its own result buffer only, which is neither an argument nor the
    region's result. -/
theorem hostOps1_keeps : (hostOps1 : List (HloOp τ sig (Elt F))).Forall Keeps := by
  simp only [hostOps1, List.Forall, Keeps, StableHlo.nullary_writes, StableHlo.unary_writes, StableHlo.binary_writes,
    StableHlo.ternary_writes, StableHlo.reshape_writes, Finset.mem_singleton]
  repeat' apply And.intro
  all_goals exact StableHlo.devRef_ne_of_ne (by decide)
/-- So does each of the three operations of the outlined maximum-with-zero. -/
theorem hostOps1_1_keeps : (hostOps1_1 : List (HloOp τ sig (Elt F))).Forall Keeps := by
  simp only [hostOps1_1, List.Forall, Keeps, StableHlo.nullary_writes, StableHlo.unary_writes, StableHlo.binary_writes,
    Finset.mem_singleton]
  repeat' apply And.intro
  all_goals exact StableHlo.devRef_ne_of_ne (by decide)

/-- The same of every operation of the two stretches, in order. -/
theorem tail_keeps : ∀ op ∈ ([hostOps1, hostOps1_1] : List (List (HloOp τ sig (Elt F)))).flatten, Keeps op := by
  intro op hop
  simp only [List.flatten_cons, List.flatten_nil, List.append_nil, List.mem_append] at hop
  rcases hop with hop | hop
  · exact (List.forall_iff_forall_mem.mp hostOps1_keeps) op hop
  · exact (List.forall_iff_forall_mem.mp hostOps1_1_keeps) op hop

/-- And none writes an array of the pipeline: x, W, or the region's result. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  have hk : Keeps op := by
    simp only [List.mem_cons, List.mem_nil_iff, or_false] at hops
    rcases hops with rfl | rfl
    · exact (List.forall_iff_forall_mem.mp hostOps1_keeps) op hop
    · exact (List.forall_iff_forall_mem.mp hostOps1_1_keeps) op hop
  intro w
  fin_cases w
  · exact hk.1
  · exact hk.2.1
  · exact hk.2.2.2.2.2.2

/-! ## The arguments no window stages, after the operations that follow the region -/

/-- No operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (fun op hop => (tail_keeps op hop).2.2.1),
    Pipeline.withArrays_of_ne _ c (V0 m c) _ main_arg2 (by exact (by decide : ∀ w, Pipeline.arrRef spec0 w ≠ main_arg2))]
  rfl
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (fun op hop => (tail_keeps op hop).2.2.2.1),
    Pipeline.withArrays_of_ne _ c (V0 m c) _ main_arg3 (by exact (by decide : ∀ w, Pipeline.arrRef spec0 w ≠ main_arg3))]
  rfl
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (fun op hop => (tail_keeps op hop).2.2.2.2.1),
    Pipeline.withArrays_of_ne _ c (V0 m c) _ main_arg4 (by exact (by decide : ∀ w, Pipeline.arrRef spec0 w ≠ main_arg4))]
  rfl
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (fun op hop => (tail_keeps op hop).2.2.2.2.2.1),
    Pipeline.withArrays_of_ne _ c (V0 m c) _ main_arg5 (by exact (by decide : ∀ w, Pipeline.arrRef spec0 w ≠ main_arg5))]
  rfl

/-! ## The windows' blocks at a point -/

/-- The region finds the two staged arguments as launched. -/
theorem V_main_arg0 (c : Dev nD) : V m c main_arg0 = m ((c : Thread nD τ).loc main_arg0) := rfl
theorem V_main_arg1 (c : Dev nD) : V m c main_arg1 = m ((c : Thread nD τ).loc main_arg1) := rfl

/-- The x window's current staging buffer holds its block at every point: it is fetched at every point, the window is
    uncut and never idle, and the body leaves the block in place. For any proof data whose array is the region-entry
    contents and whose body keeps the block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The W window's current staging buffer holds the whole of W at every point: it is fetched at the first point only,
    and at a later point the block index has not moved, so the buffer still holds what the body left, which is the
    block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The frame claim's post from the frame run's -/

set_option maxHeartbeats 8000000 in
/-- From a run to the library's frame post — every array of the pipeline at what the proof data computes, every other
    unscoped buffer as the operations after the region leave it — to the six arguments ending as launched: x and W are
    input arrays of the pipeline, never written back, so they end at the region-entry contents, which are the launch
    contents; the other four bypass the region and no later operation writes them. For any proof data whose arrays are
    the region-entry contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The body's triple -/

/-- The three stored slabs tile the 3×2000×256 output block, so they cover it. -/
theorem cover0_2 (p0 p1 p2 : Vec F S1x2000x256 .f32) (y : S3x2000x256.Idx) :
    ∃ pc ∈ ([⟨rO2, p0⟩, ⟨rO1, p1⟩, ⟨rO0, p2⟩] : List (View.Piece (Elt F) S3x2000x256 .f32)), y ∈ pc.1.set :=
  View.cover_of_tiled [⟨rO2, p0⟩, ⟨rO1, p1⟩, ⟨rO0, p2⟩] S1x2000x256.size (by rfl) y

set_option maxHeartbeats 4000000 in
/-- The kernel body on whole staging memrefs — x's at `x0`, W's at `x1`, the output's at anything — runs to the
    continuation holding the inputs' as they were and the output's at `out0_2 x0 x1`. The body reads each slab of the
    output buffer before it stores to it; the value read is used by nothing, and the three stores cover the buffer, so
    what it held before does not matter. -/
theorem sound_kernel (c : Dev nD) (E : Set ℕ) (i : grid0.Coords)
    (arg1 : Memref sig .tc .vmem S2000x512 .f32) (harg1 : arg1.IsWhole)
    (arg2 : Memref sig .tc .vmem S3x512x256 .f32) (harg2 : arg2.IsWhole)
    (arg3 : Memref sig .tc .vmem S3x2000x256 .f32) (harg3 : arg3.IsWhole)
    (x0 : Vec F S2000x512 .f32) (x1 : Vec F S3x512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

/-! ## The body obligation, at a generic point -/

/-- What the body is called with at point `t`: the invariant, the core's owed waits, and each window's current staging
    buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- At the compiled mesh, for any values, from any memory with zero counters: every weakly fair execution of the entry
    function on the TensorCores terminates, and every final state has every array of the pipeline at what the library
    computes from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

set_option maxHeartbeats 8000000 in
/-- The run, read at the program's result and at its arguments: the result buffer bypasses the region, so it ends at
    what the operations after the region compute from the region's exit contents; the six arguments end as launched. -/
theorem run_named : θ_run defs (onTc (τ := τ) (main (F := F))) ⟨m, fun _ => 0, ρ⟩ (fun r => ∀ c : Dev nD,
      r.2.mem ((c.tc : Thread nD τ).loc main_v80) = Pipeline.afterTail₀ cfgs (dats m) 0 (V0 m) [hostOps1, hostOps1_1] c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v80 (Pipeline.mem_restRefs_of main_v80 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

set_option maxHeartbeats 8000000 in
/-- The frame: the program runs — terminates, no fault — and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.KB.Data.lean ====
/-
  The proof data of the one pipeline of this program, at any float instance: the arrays as the region finds
  them (no host operation runs before the region, so they are the launch contents), each window's block at a grid
  point, the rectangles the body loads and stores through, and what the body leaves in the output window's buffer:
  its three stores, one per support, each the product of the point's 2000 rows of x with one 512×256 slab of W.
-/
import proofs.«136003_j11579231830756_2_alg».proof.Proof.Gen.Kernel.Launch
import proofs.«136003_j11579231830756_2_alg».proof.Proof.Gen.Kernel.Skeleton
import proofs.«136003_j11579231830756_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch contents (nothing runs before the region). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 2000×512 block of x. -/
abbrev rX : Rect S2000x512 := Rect.unit (s := S2000x512) ![0, 0] S2000x512.size inb_S2000x512_S2000x512_0_0
/-- Slab `s` of the 3×512×256 block of W. -/
abbrev rW0 : Rect S3x512x256 := Rect.unit (s := S3x512x256) ![0, 0, 0] S1x512x256.size inb_S3x512x256_S1x512x256_0_0_0
abbrev rW1 : Rect S3x512x256 := Rect.unit (s := S3x512x256) ![1, 0, 0] S1x512x256.size inb_S3x512x256_S1x512x256_1_0_0
abbrev rW2 : Rect S3x512x256 := Rect.unit (s := S3x512x256) ![2, 0, 0] S1x512x256.size inb_S3x512x256_S1x512x256_2_0_0
/-- Slab `s` of the 3×2000×256 output block. -/
abbrev rO0 : Rect S3x2000x256 := Rect.unit (s := S3x2000x256) ![0, 0, 0] S1x2000x256.size inb_S3x2000x256_S1x2000x256_0_0_0
abbrev rO1 : Rect S3x2000x256 := Rect.unit (s := S3x2000x256) ![1, 0, 0] S1x2000x256.size inb_S3x2000x256_S1x2000x256_1_0_0
abbrev rO2 : Rect S3x2000x256 := Rect.unit (s := S3x2000x256) ![2, 0, 0] S1x2000x256.size inb_S3x2000x256_S1x2000x256_2_0_0

/-- The output window's buffer after the body, from the two input blocks: its three stores as pieces, last first;
    slab `s` holds the payload of x's block and slab `s` of W's block. -/
def out0_2 (x0 : Vec F S2000x512 .f32) (x1 : Vec F S3x512x256 .f32) : Vec F S3x2000x256 .f32 :=
  View.canon [⟨rO2, k0_pay4 (View.ld x0 rX) (View.ld x1 rW2)⟩,
    ⟨rO1, k0_pay3 (View.ld x0 rX) (View.ld x1 rW1)⟩,
    ⟨rO0, k0_pay2 (View.ld x0 rX) (View.ld x1 rW0)⟩]

/-- The proof data of the pipeline on core `c`: the arrays as the region finds them; after the body at point `t`
    each input's buffer at its block and the output's at `out0_2` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = out0_2 (iblk m c 0 t) (iblk m c 1 t) := by dsimp only [dats]

end Cert.Kernel.Fr

end
-- ==== Proof.KB.Frame.lean ====
/-
  The frame run of the kernel program, at any float instance: the program's entry function is its one pipelined
  region followed by host operations; the region's body reads a block of x and the three slabs of W and stores three
  slabs of the output block, which together tile it; the host operations after the region write only their own result
  buffers. So every weakly fair execution terminates, and the six argument arrays end as launched.
-/
import proofs.«136003_j11579231830756_2_alg».proof.Proof.KB.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The host operations after the region allocate nothing. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 8000000 in
/-- The entry function is the region continued by the two stretches of host operations: nothing runs before the
    region, so it finds every buffer as launched. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [] [hostOps1, hostOps1_1] (by simp only [List.Forall])
    (by simp only [List.Forall]) main_chain

/-! ## The host operations after the region -/

/-- The operations after the region touch the pipeline's arrays and the buffers that bypass the region only: each
    operation's buffers are unscoped TensorCore references, and with nothing prefetched every such reference is one
    or the other. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- The buffers the frame speaks of: no operation after the region writes one of them. -/
def Keeps (op : HloOp τ sig (Elt F)) : Prop :=
  Proc.devRef .tc main_arg0 ∉ op.writes ∧ Proc.devRef .tc main_arg1 ∉ op.writes ∧ Proc.devRef .tc main_arg2 ∉ op.writes
    ∧ Proc.devRef .tc main_arg3 ∉ op.writes ∧ Proc.devRef .tc main_arg4 ∉ op.writes ∧ Proc.devRef .tc main_arg5 ∉ op.writes
    ∧ Proc.devRef .tc main_v0 ∉ op.writes

set_option maxHeartbeats 8000000 in
/-- Each operation of the first stretch writes its own result buffer only, which is neither an argument nor the
    region's result. -/
theorem hostOps1_keeps : (hostOps1 : List (HloOp τ sig (Elt F))).Forall Keeps := by
  simp only [hostOps1, List.Forall, Keeps, StableHlo.nullary_writes, StableHlo.unary_writes, StableHlo.binary_writes,
    StableHlo.ternary_writes, StableHlo.reshape_writes, Finset.mem_singleton]
  repeat' apply And.intro
  all_goals exact StableHlo.devRef_ne_of_ne (by decide)
/-- So does each of the three operations of the outlined maximum-with-zero. -/
theorem hostOps1_1_keeps : (hostOps1_1 : List (HloOp τ sig (Elt F))).Forall Keeps := by
  simp only [hostOps1_1, List.Forall, Keeps, StableHlo.nullary_writes, StableHlo.unary_writes, StableHlo.binary_writes,
    Finset.mem_singleton]
  repeat' apply And.intro
  all_goals exact StableHlo.devRef_ne_of_ne (by decide)

/-- The same of every operation of the two stretches, in order. -/
theorem tail_keeps : ∀ op ∈ ([hostOps1, hostOps1_1] : List (List (HloOp τ sig (Elt F)))).flatten, Keeps op := by
  intro op hop
  simp only [List.flatten_cons, List.flatten_nil, List.append_nil, List.mem_append] at hop
  rcases hop with hop | hop
  · exact (List.forall_iff_forall_mem.mp hostOps1_keeps) op hop
  · exact (List.forall_iff_forall_mem.mp hostOps1_1_keeps) op hop

/-- And none writes an array of the pipeline: x, W, or the region's result. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  have hk : Keeps op := by
    simp only [List.mem_cons, List.mem_nil_iff, or_false] at hops
    rcases hops with rfl | rfl
    · exact (List.forall_iff_forall_mem.mp hostOps1_keeps) op hop
    · exact (List.forall_iff_forall_mem.mp hostOps1_1_keeps) op hop
  intro w
  fin_cases w
  · exact hk.1
  · exact hk.2.1
  · exact hk.2.2.2.2.2.2

/-! ## The arguments no window stages, after the operations that follow the region -/

/-- No operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (fun op hop => (tail_keeps op hop).2.2.1),
    Pipeline.withArrays_of_ne _ c (V0 m c) _ main_arg2 (by exact (by decide : ∀ w, Pipeline.arrRef spec0 w ≠ main_arg2))]
  rfl
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (fun op hop => (tail_keeps op hop).2.2.2.1),
    Pipeline.withArrays_of_ne _ c (V0 m c) _ main_arg3 (by exact (by decide : ∀ w, Pipeline.arrRef spec0 w ≠ main_arg3))]
  rfl
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (fun op hop => (tail_keeps op hop).2.2.2.2.1),
    Pipeline.withArrays_of_ne _ c (V0 m c) _ main_arg4 (by exact (by decide : ∀ w, Pipeline.arrRef spec0 w ≠ main_arg4))]
  rfl
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (fun op hop => (tail_keeps op hop).2.2.2.2.2.1),
    Pipeline.withArrays_of_ne _ c (V0 m c) _ main_arg5 (by exact (by decide : ∀ w, Pipeline.arrRef spec0 w ≠ main_arg5))]
  rfl

/-! ## The windows' blocks at a point -/

/-- The region finds the two staged arguments as launched. -/
theorem V_main_arg0 (c : Dev nD) : V m c main_arg0 = m ((c : Thread nD τ).loc main_arg0) := rfl
theorem V_main_arg1 (c : Dev nD) : V m c main_arg1 = m ((c : Thread nD τ).loc main_arg1) := rfl

/-- The x window's current staging buffer holds its block at every point: it is fetched at every point, the window is
    uncut and never idle, and the body leaves the block in place. For any proof data whose array is the region-entry
    contents and whose body keeps the block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The W window's current staging buffer holds the whole of W at every point: it is fetched at the first point only,
    and at a later point the block index has not moved, so the buffer still holds what the body left, which is the
    block. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The frame claim's post from the frame run's -/

set_option maxHeartbeats 8000000 in
/-- From a run to the library's frame post — every array of the pipeline at what the proof data computes, every other
    unscoped buffer as the operations after the region leave it — to the six arguments ending as launched: x and W are
    input arrays of the pipeline, never written back, so they end at the region-entry contents, which are the launch
    contents; the other four bypass the region and no later operation writes them. For any proof data whose arrays are
    the region-entry contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The body's triple -/

/-- The three stored slabs tile the 3×2000×256 output block, so they cover it. -/
theorem cover0_2 (p0 p1 p2 : Vec F S1x2000x256 .f32) (y : S3x2000x256.Idx) :
    ∃ pc ∈ ([⟨rO2, p0⟩, ⟨rO1, p1⟩, ⟨rO0, p2⟩] : List (View.Piece (Elt F) S3x2000x256 .f32)), y ∈ pc.1.set :=
  View.cover_of_tiled [⟨rO2, p0⟩, ⟨rO1, p1⟩, ⟨rO0, p2⟩] S1x2000x256.size (by rfl) y

set_option maxHeartbeats 4000000 in
/-- The kernel body on whole staging memrefs — x's at `x0`, W's at `x1`, the output's at anything — runs to the
    continuation holding the inputs' as they were and the output's at `out0_2 x0 x1`. The body reads each slab of the
    output buffer before it stores to it; the value read is used by nothing, and the three stores cover the buffer, so
    what it held before does not matter. -/
theorem sound_kernel (c : Dev nD) (E : Set ℕ) (i : grid0.Coords)
    (arg1 : Memref sig .tc .vmem S2000x512 .f32) (harg1 : arg1.IsWhole)
    (arg2 : Memref sig .tc .vmem S3x512x256 .f32) (harg2 : arg2.IsWhole)
    (arg3 : Memref sig .tc .vmem S3x2000x256 .f32) (harg3 : arg3.IsWhole)
    (x0 : Vec F S2000x512 .f32) (x1 : Vec F S3x512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

/-! ## The body obligation, at a generic point -/

/-- What the body is called with at point `t`: the invariant, the core's owed waits, and each window's current staging
    buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- At the compiled mesh, for any values, from any memory with zero counters: every weakly fair execution of the entry
    function on the TensorCores terminates, and every final state has every array of the pipeline at what the library
    computes from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

set_option maxHeartbeats 8000000 in
/-- The run, read at the program's result and at its arguments: the result buffer bypasses the region, so it ends at
    what the operations after the region compute from the region's exit contents; the six arguments end as launched. -/
theorem run_named : θ_run defs (onTc (τ := τ) (main (F := F))) ⟨m, fun _ => 0, ρ⟩ (fun r => ∀ c : Dev nD,
      r.2.mem ((c.tc : Thread nD τ).loc main_v80) = Pipeline.afterTail₀ cfgs (dats m) 0 (V0 m) [hostOps1, hostOps1_1] c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v80 (Pipeline.mem_restRefs_of main_v80 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

set_option maxHeartbeats 8000000 in
/-- The frame: the program runs — terminates, no fault — and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Fr

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«136003_j11579231830756_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.Spec.lean ====
/-
  The dense part of the computation as whole-array functions on the extended reals.

  W is a stack of three 512×256 matrices; `slab W s` is the s-th of them and `prod3 x W` stacks the three products
  x · slab W s of the one 50000×512 matrix x: entry (s, r, q) is the sum over c of x(r, c) · W(s, c, q).
  Cutting slab s out of a stack (a unit-stride slice at offset (s, 0, 0) followed by dropping the unit axis) is read
  once here, for a stack of any two trailing extents: it serves W's slabs on the reference's side and the product's
  slabs on the kernel's side. Nothing here mentions a program.
-/
import Idealize.ShloMosaic.PureOps.Ideal.Laws
import Idealize.ShloMosaic.Lib.ValueIdx
import Idealize.ShloMosaic.Lib.Pipeline.Value
import proofs.«136003_j11579231830756_2_alg».proof.Proof.LibMatProd

open scoped BigOperators

noncomputable section

namespace Cert.Spec

open Idealize.ShloMosaic Idealize.ShloMosaic.ValueIdx Cert.Lib.MatProd

/-- Slab `s` of a stack of three a×b arrays. -/
def slab {α : Type} {a b : Nat} (A : (⟨3, ![3, a, b]⟩ : Shape).Idx → α) (s : Fin 3) : (⟨2, ![a, b]⟩ : Shape).Idx → α :=
  fun i => A (ix3 s (i 0) (i 1))

theorem slab_apply {α : Type} {a b : Nat} (A : (⟨3, ![3, a, b]⟩ : Shape).Idx → α) (s : Fin 3) (p : Fin a) (q : Fin b) :
    slab A s (ix2 p q) = A (ix3 s p q) := rfl

/-- The three products of x with the slabs of W, stacked: entry (s, r, q) is entry (r, q) of x · slab W s. -/
def prod3 (x : (⟨2, ![50000, 512]⟩ : Shape).Idx → EReal) (W : (⟨3, ![3, 512, 256]⟩ : Shape).Idx → EReal) :
    (⟨3, ![3, 50000, 256]⟩ : Shape).Idx → EReal :=
  fun i => matProd x (slab W (i 0)) (ix2 (i 1) (i 2))

theorem prod3_apply (x : (⟨2, ![50000, 512]⟩ : Shape).Idx → EReal) (W : (⟨3, ![3, 512, 256]⟩ : Shape).Idx → EReal)
    (s : Fin 3) (r : Fin 50000) (q : Fin 256) :
    prod3 x W (ix3 s r q) = ∑ c : Fin 512, x (ix2 r c) * W (ix3 s c q) := rfl

/-- Slab `s` of the stacked products is the product with slab `s`. -/
theorem slab_prod3 (x : (⟨2, ![50000, 512]⟩ : Shape).Idx → EReal) (W : (⟨3, ![3, 512, 256]⟩ : Shape).Idx → EReal)
    (s : Fin 3) : slab (prod3 x W) s = matProd x (slab W s) := by
  funext i
  obtain ⟨p, q, rfl⟩ : ∃ (p : Fin 50000) (q : Fin 256), i = ix2 p q := ⟨i 0, i 1, eq_ix2 i⟩
  rfl

/-- The unit-stride slice of extents 1×a×b at offset (s, 0, 0) of a stack, with its unit axis dropped, is slab `s`. -/
theorem dropUnit_slice_eq_slab {α : Type} {a b : Nat} (A : (⟨3, ![3, a, b]⟩ : Shape).Idx → α) (s : Fin 3)
    (off : Fin 3 → Nat) (hoff : off = ![s.val, 0, 0])
    (hs : (⟨3, ![3, a, b]⟩ : Shape).Slices off ⟨3, ![1, a, b]⟩)
    (hc : (⟨3, ![1, a, b]⟩ : Shape).ShapeCasts ⟨2, ![a, b]⟩) :
    shapeCast ⟨2, ![a, b]⟩ (extractStridedSlice ⟨3, ![1, a, b]⟩ off A hs) hc = slab A s := by
  subst hoff
  funext i
  obtain ⟨p, q, rfl⟩ : ∃ (p : Fin a) (q : Fin b), i = ix2 p q := ⟨i 0, i 1, eq_ix2 i⟩
  rw [shapeCast_dropUnit_apply ![a, b] _ hc (ix2 p q), slab_apply]
  refine extractStridedSlice_apply _ A hs _ (ix3 s p q) fun ax => ?_
  match ax with
  | ⟨0, _⟩ => show s.val = s.val + 0; omega
  | ⟨1, _⟩ => show p.val = 0 + p.val; omega
  | ⟨2, _⟩ => show q.val = 0 + q.val; omega

end Cert.Spec

end
-- ==== Proof.KI.Value.lean ====
/-
  The product array the region leaves, as one function of the argument arrays.

  At grid point t the body sees rows 2000·t … 2000·t + 1999 of x and the whole of W, and stores, slab by slab, the
  three products of that block of rows with the slabs of W; the output block at point t is rows 2000·t … 2000·t + 1999
  of the three product matrices. An entry of a product depends on one row of the left operand, so each point writes
  back exactly its rows of `prod3 x W`; the 25 blocks cover the 50000 rows, hence the array ends at `prod3 x W`.
  Sums on the extended reals are taken as they stand: nothing here asks the entries to be finite.
-/
import proofs.«136003_j11579231830756_2_alg».proof.Proof.KI.Data
import proofs.«136003_j11579231830756_2_alg».proof.Proof.Spec
import Idealize.ShloMosaic.Lib.Pipeline.Value

noncomputable section

open Idealize.ShloMosaic Idealize.ShloMosaic.TcCoe Idealize.SL.Sem
open Idealize.ShloMosaic.Pipeline (Dat)
open scoped BigOperators

namespace Cert.KernelIdeal.Val

open Cert.KernelIdeal Cert.KernelIdeal.Gen Cert.KernelIdeal.Fr Idealize.ShloMosaic.ValueIdx Cert.Spec Cert.Lib.MatProd

variable (m : (ℓ : Loc nD τ sig) → Buf (Elt Ideal) ℓ)

/-- The block indices of the three windows at point t, decided over the 25 points. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

theorem iblk0_apply (c : Dev nD) (t : Fin cfg0.N) (y : S2000x512.Idx) (k : S50000x512.Idx)
    (hk0 : (k 0).val = 2000 * t.val + (y 0).val) (hk1 : (k 1).val = (y 1).val) :
    (iblk m c 0 t : Vec Ideal S2000x512 .f32) y = (V m c main_arg0 : S50000x512.Idx → Elt Ideal .f32) k := by
  obtain ⟨e0, e1, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 2000 + 1 * (y 0).val = (k 0).val; rw [e0, hk0]; omega
  | ⟨1, _⟩ => show win0_0.index t (1 : Fin 2) * 512 + 1 * (y 1).val = (k 1).val; rw [e1, hk1]; omega

theorem iblk1_apply (c : Dev nD) (t : Fin cfg0.N) (y : S3x512x256.Idx) :
    (iblk m c 1 t : Vec Ideal S3x512x256 .f32) y = (V m c main_arg1 : S3x512x256.Idx → Elt Ideal .f32) y := by
  obtain ⟨-, -, e0, e1, e2, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 3) * 3 + 1 * (y 0).val = (y 0).val; rw [e0]; omega
  | ⟨1, _⟩ => show win0_1.index t (1 : Fin 3) * 512 + 1 * (y 1).val = (y 1).val; rw [e1]; omega
  | ⟨2, _⟩ => show win0_1.index t (2 : Fin 3) * 256 + 1 * (y 2).val = (y 2).val; rw [e2]; omega

theorem succ_ix3 {n0 n1 n2 : Nat} (a : Fin n0) (p : Fin n1) (q : Fin n2) :
    (fun ax : Fin 2 => (ix3 a p q : (⟨3, ![n0, n1, n2]⟩ : Shape).Idx) ax.succ) = (ix2 p q : (⟨2, ![n1, n2]⟩ : Shape).Idx) := by
  funext ax; match ax with | ⟨0, _⟩ => rfl | ⟨1, _⟩ => rfl

theorem cons_ix2 {n1 n2 : Nat} (p : Fin n1) (q : Fin n2) :
    (Fin.cons (⟨0, Nat.one_pos⟩ : Fin 1) (ix2 p q : (⟨2, ![n1, n2]⟩ : Shape).Idx) : (⟨3, ![1, n1, n2]⟩ : Shape).Idx) = ix3 ⟨0, Nat.one_pos⟩ p q := by
  funext ax; match ax with | ⟨0, _⟩ => rfl | ⟨1, _⟩ => rfl | ⟨2, _⟩ => rfl

/-- A payload of the body, entry by entry: the product of the block of x with one slab of W. -/
theorem pay2_sum (X : Vec Ideal S2000x512 .f32) (Ws : Vec Ideal S1x512x256 .f32) (p : Fin 2000) (q : Fin 256) :
    k0_pay2 X Ws (ix3 ⟨0, Nat.one_pos⟩ p q) = ∑ cc : Fin 512, X (ix2 p cc) * Ws (ix3 ⟨0, Nat.one_pos⟩ cc q) := by
  unfold k0_pay2 k0_pay1
  dsimp only
  rw [shapeCast_addUnit_apply ![2000, 256] _ shapeCasts_S2000x256_S1x2000x256, succ_ix3]
  rw [matmul_zero_eq_matProd dot_S2000x512_S512x256_S2000x256_1_0_0_1_n_n rfl rfl rfl rfl rfl rfl none, matProd_apply]
  refine Finset.sum_congr rfl fun cc _ => ?_
  show X (ix2 p cc) * shapeCast S512x256 Ws shapeCasts_S1x512x256_S512x256 (ix2 cc q) = _
  rw [shapeCast_dropUnit_apply ![512, 256] Ws shapeCasts_S1x512x256_S512x256]
  refine congrArg (fun z => X (ix2 p cc) * Ws z) ?_
  funext ax; match ax with | ⟨0, _⟩ => rfl | ⟨1, _⟩ => rfl | ⟨2, _⟩ => rfl

theorem pay3_eq (X : Vec Ideal S2000x512 .f32) (Ws : Vec Ideal S1x512x256 .f32) : k0_pay3 X Ws = k0_pay2 X Ws := rfl
theorem pay4_eq (X : Vec Ideal S2000x512 .f32) (Ws : Vec Ideal S1x512x256 .f32) : k0_pay4 X Ws = k0_pay2 X Ws := rfl

/-- Every index of a 1×a×b block has leading coordinate 0. -/
theorem eq_ix3_lead {a b : Nat} (x : (⟨3, ![1, a, b]⟩ : Shape).Idx) : x = ix3 ⟨0, Nat.one_pos⟩ (x 1) (x 2) := by
  funext ax
  match ax with
  | ⟨0, _⟩ => apply Fin.ext; have h : (x 0).val < 1 := (x 0).isLt; show (x 0).val = 0; omega
  | ⟨1, _⟩ => rfl
  | ⟨2, _⟩ => rfl

/-- The three slabs tile the output block. -/
theorem cover3 (p0 p1 p2 : Vec Ideal S1x2000x256 .f32) (y : S3x2000x256.Idx) :
    ∃ pc ∈ ([⟨rO2, p0⟩, ⟨rO1, p1⟩, ⟨rO0, p2⟩] : List (View.Piece (Elt Ideal) S3x2000x256 .f32)), y ∈ pc.1.set :=
  View.cover_of_tiled [⟨rO2, p0⟩, ⟨rO1, p1⟩, ⟨rO0, p2⟩] S1x2000x256.size (by rfl) y

/-- What the body leaves in the output block is one function of the two input blocks: entry (s, p, q) is the sum over c
    of X(p, c) · Wb(s, c, q) — each of the three stores writes slab s of it. -/
theorem out_eq (X : Vec Ideal S2000x512 .f32) (Wb : Vec Ideal S3x512x256 .f32) (G : S3x2000x256.Idx → Elt Ideal .f32)
    (hG : ∀ (s : Fin 3) (p : Fin 2000) (q : Fin 256), G (ix3 s p q) = ∑ cc : Fin 512, X (ix2 p cc) * Wb (ix3 s cc q)) :
    out0_2 X Wb = G := by
  funext y
  unfold out0_2
  refine View.canon_apply_of_pieces (Val := Elt Ideal) (e := EltTy.f32) G _ ?_ y ?_
  · intro pc hpc x
    simp only [List.mem_cons, List.mem_nil_iff, or_false] at hpc
    rcases hpc with rfl | rfl | rfl
    · obtain ⟨p, q, rfl⟩ : ∃ (p : Fin 2000) (q : Fin 256), x = ix3 ⟨0, Nat.one_pos⟩ p q := ⟨x 1, x 2, eq_ix3_lead x⟩
      show k0_pay4 (View.ld X rX) (View.ld Wb rW2) (ix3 ⟨0, Nat.one_pos⟩ p q) = G (rO2.emb (ix3 ⟨0, Nat.one_pos⟩ p q))
      rw [pay4_eq, pay2_sum, show rO2.emb (ix3 ⟨0, Nat.one_pos⟩ p q) = ix3 (2 : Fin 3) p q from by
        funext ax; apply Fin.ext; match ax with
        | ⟨0, _⟩ => rfl
        | ⟨1, _⟩ => show 0 + 1 * p.val = p.val; omega
        | ⟨2, _⟩ => show 0 + 1 * q.val = q.val; omega, hG]
      refine Finset.sum_congr rfl fun cc _ => ?_
      show X (rX.emb (ix2 p cc)) * Wb (rW2.emb (ix3 ⟨0, Nat.one_pos⟩ cc q)) = _
      rw [show rX.emb (ix2 p cc) = ix2 p cc from by
        funext ax; apply Fin.ext; match ax with
        | ⟨0, _⟩ => show 0 + 1 * p.val = p.val; omega
        | ⟨1, _⟩ => show 0 + 1 * cc.val = cc.val; omega,
        show rW2.emb (ix3 ⟨0, Nat.one_pos⟩ cc q) = ix3 (2 : Fin 3) cc q from by
        funext ax; apply Fin.ext; match ax with
        | ⟨0, _⟩ => rfl
        | ⟨1, _⟩ => show 0 + 1 * cc.val = cc.val; omega
        | ⟨2, _⟩ => show 0 + 1 * q.val = q.val; omega]
    · obtain ⟨p, q, rfl⟩ : ∃ (p : Fin 2000) (q : Fin 256), x = ix3 ⟨0, Nat.one_pos⟩ p q := ⟨x 1, x 2, eq_ix3_lead x⟩
      show k0_pay3 (View.ld X rX) (View.ld Wb rW1) (ix3 ⟨0, Nat.one_pos⟩ p q) = G (rO1.emb (ix3 ⟨0, Nat.one_pos⟩ p q))
      rw [pay3_eq, pay2_sum, show rO1.emb (ix3 ⟨0, Nat.one_pos⟩ p q) = ix3 (1 : Fin 3) p q from by
        funext ax; apply Fin.ext; match ax with
        | ⟨0, _⟩ => rfl
        | ⟨1, _⟩ => show 0 + 1 * p.val = p.val; omega
        | ⟨2, _⟩ => show 0 + 1 * q.val = q.val; omega, hG]
      refine Finset.sum_congr rfl fun cc _ => ?_
      show X (rX.emb (ix2 p cc)) * Wb (rW1.emb (ix3 ⟨0, Nat.one_pos⟩ cc q)) = _
      rw [show rX.emb (ix2 p cc) = ix2 p cc from by
        funext ax; apply Fin.ext; match ax with
        | ⟨0, _⟩ => show 0 + 1 * p.val = p.val; omega
        | ⟨1, _⟩ => show 0 + 1 * cc.val = cc.val; omega,
        show rW1.emb (ix3 ⟨0, Nat.one_pos⟩ cc q) = ix3 (1 : Fin 3) cc q from by
        funext ax; apply Fin.ext; match ax with
        | ⟨0, _⟩ => rfl
        | ⟨1, _⟩ => show 0 + 1 * cc.val = cc.val; omega
        | ⟨2, _⟩ => show 0 + 1 * q.val = q.val; omega]
    · obtain ⟨p, q, rfl⟩ : ∃ (p : Fin 2000) (q : Fin 256), x = ix3 ⟨0, Nat.one_pos⟩ p q := ⟨x 1, x 2, eq_ix3_lead x⟩
      show k0_pay2 (View.ld X rX) (View.ld Wb rW0) (ix3 ⟨0, Nat.one_pos⟩ p q) = G (rO0.emb (ix3 ⟨0, Nat.one_pos⟩ p q))
      rw [pay2_sum, show rO0.emb (ix3 ⟨0, Nat.one_pos⟩ p q) = ix3 (0 : Fin 3) p q from by
        funext ax; apply Fin.ext; match ax with
        | ⟨0, _⟩ => rfl
        | ⟨1, _⟩ => show 0 + 1 * p.val = p.val; omega
        | ⟨2, _⟩ => show 0 + 1 * q.val = q.val; omega, hG]
      refine Finset.sum_congr rfl fun cc _ => ?_
      show X (rX.emb (ix2 p cc)) * Wb (rW0.emb (ix3 ⟨0, Nat.one_pos⟩ cc q)) = _
      rw [show rX.emb (ix2 p cc) = ix2 p cc from by
        funext ax; apply Fin.ext; match ax with
        | ⟨0, _⟩ => show 0 + 1 * p.val = p.val; omega
        | ⟨1, _⟩ => show 0 + 1 * cc.val = cc.val; omega,
        show rW0.emb (ix3 ⟨0, Nat.one_pos⟩ cc q) = ix3 (0 : Fin 3) cc q from by
        funext ax; apply Fin.ext; match ax with
        | ⟨0, _⟩ => rfl
        | ⟨1, _⟩ => show 0 + 1 * cc.val = cc.val; omega
        | ⟨2, _⟩ => show 0 + 1 * q.val = q.val; omega]
  · exact cover3 _ _ _ y

/-- An index of the product array is in point t's block iff each coordinate is in the block's range on its axis. -/
theorem mem_blk2 (t : Fin cfg0.N) (i : S3x50000x256.Idx) :
    i ∈ ((cfg0.win 2).blk t).view.set ↔ ∀ a : Fin 3, win0_2.index t a * S3x2000x256.size a ≤ (i a).val ∧ (i a).val < win0_2.index t a * S3x2000x256.size a + S3x2000x256.size a := by
  show i ∈ ((View.whole main_v0).slice (win0_2.rect t)).set ↔ _
  rw [View.set_slice_whole, Rect.mem_set_unit]
  exact Iff.rfl

/-- WHAT POINT t WRITES BACK is block t of the stacked products of the argument arrays: the block holds rows
    2000·t … 2000·t + 1999 of each of the three products. -/
theorem flushed_eq (c : Dev nD) (t : Fin cfg0.N) :
    (dats m 0 c).flushed 2 t = ((cfg0.win 2).blk t).view.read (Elt Ideal)
      (prod3 (V m c main_arg0 : S50000x512.Idx → Elt Ideal .f32) (V m c main_arg1 : S3x512x256.Idx → Elt Ideal .f32)) := by
  have hN : cfg0.N = 25 := N_0
  obtain ⟨-, -, -, -, -, e0, e1, e2⟩ := idx_facts t
  show (cfg0.win 2).cut (grid0.coords t) ((dats m 0 c).after 2 t) = _
  rw [after0_2, out_eq (iblk m c 0 t) (iblk m c 1 t)
    (fun y => prod3 (V m c main_arg0 : S50000x512.Idx → Elt Ideal .f32) (V m c main_arg1 : S3x512x256.Idx → Elt Ideal .f32)
      (((cfg0.win 2).blk t).view.emb y)) ?_]
  · rfl
  · intro s p q
    have ht : t.val < 25 := hN ▸ t.isLt
    have hemb : ((cfg0.win 2).blk t).view.emb (ix3 s p q)
        = (ix3 s (⟨2000 * t.val + p.val, by omega⟩ : Fin 50000) q : S3x50000x256.Idx) := by
      funext ax; apply Fin.ext
      match ax with
      | ⟨0, _⟩ => show win0_2.index t (0 : Fin 3) * 3 + 1 * s.val = s.val; rw [e0]; omega
      | ⟨1, _⟩ => show win0_2.index t (1 : Fin 3) * 2000 + 1 * p.val = 2000 * t.val + p.val; rw [e1]; omega
      | ⟨2, _⟩ => show win0_2.index t (2 : Fin 3) * 256 + 1 * q.val = q.val; rw [e2]; omega
    show prod3 _ _ (((cfg0.win 2).blk t).view.emb (ix3 s p q)) = _
    rw [hemb, prod3_apply]
    refine Finset.sum_congr rfl fun cc _ => ?_
    rw [iblk0_apply m c t (ix2 p cc) (ix2 (⟨2000 * t.val + p.val, by omega⟩ : Fin 50000) cc) rfl rfl, iblk1_apply m c t (ix3 s cc q)]

/-- Every index of the product array is in some point's block: row r is in the block of point r / 2000. -/
theorem cover (i : S3x50000x256.Idx) :
    ∃ t : Fin cfg0.N, (cfg0.win 2).flush t = true ∧ i ∈ ((cfg0.win 2).blk t).view.set := by
  have hN : cfg0.N = 25 := N_0
  have h0 : (i 0).val < 3 := (i 0).isLt
  have h1 : (i 1).val < 50000 := (i 1).isLt
  have h2 : (i 2).val < 256 := (i 2).isLt
  refine ⟨⟨(i 1).val / 2000, by omega⟩, flush0_2 _, ?_⟩
  obtain ⟨-, -, -, -, -, e0, e1, e2⟩ := idx_facts ⟨(i 1).val / 2000, by omega⟩
  rw [mem_blk2]
  intro a
  match a with
  | ⟨0, _⟩ => show win0_2.index _ (0 : Fin 3) * 3 ≤ (i 0).val ∧ (i 0).val < win0_2.index _ (0 : Fin 3) * 3 + 3; rw [e0]; omega
  | ⟨1, _⟩ => show win0_2.index _ (1 : Fin 3) * 2000 ≤ (i 1).val ∧ (i 1).val < win0_2.index _ (1 : Fin 3) * 2000 + 2000; rw [e1]; show (i 1).val / 2000 * 2000 ≤ (i 1).val ∧ (i 1).val < (i 1).val / 2000 * 2000 + 2000; omega
  | ⟨2, _⟩ => show win0_2.index _ (2 : Fin 3) * 256 ≤ (i 2).val ∧ (i 2).val < win0_2.index _ (2 : Fin 3) * 256 + 256; rw [e2]; omega

/-- THE PRODUCT ARRAY after the region: the three products of x with the slabs of W, stacked. -/
theorem final2 (c : Dev nD) : (dats m 0 c).arrAt 2 cfg0.N
    = prod3 (m ((c : Thread nD τ).loc main_arg0) : S50000x512.Idx → Elt Ideal .f32) (m ((c : Thread nD τ).loc main_arg1) : S3x512x256.Idx → Elt Ideal .f32) :=
  (dats m 0 c).arrAt_eq_of_cover 2 _ (fun t _ => flushed_eq m c t) cover

end Cert.KernelIdeal.Val
end
-- ==== Proof.KI.Tail.lean ====
/-
  What the lines after the region compute, as one function of the product array the region leaves and of the
  argument arrays. For each support s: the column entries (cols, a negative entry moved up by 50000) pick rows of
  slab s of the product array; each picked row is scaled by cw[s]·vals[s, j]; the scaled rows are added, at the row
  entries rows[s, j], into an array of zeros. The three supports' arrays are added in order onto zeros and the sum is
  joined with zero entry by entry.
-/
import proofs.«136003_j11579231830756_2_alg».proof.Proof.KI.Data
import Idealize.ShloMosaic.Lib.StableHlo.Run

noncomputable section

namespace Cert.KernelIdeal.Tail

open Cert.KernelIdeal Cert.KernelIdeal.Gen Cert.KernelIdeal.Fr
open Idealize.ShloMosaic Idealize.ShloMosaic.TcCoe Idealize.SL.Sem Idealize.ShloMosaic.StableHlo
open Idealize.ShloMosaic.Pipeline (Dat)

variable {F : FTy → Type} [FloatOps F]

/-- The 50000×256 array of zeros every accumulation starts from. -/
def zerosN : (⟨S50000x256, .f32⟩ : BufTy).Contents (Elt F) :=
  broadcastInDim S50000x256 ![] bcast_S_S50000x256 (constant S_ .f32 0x00000000#32)

/-- The start-index column of a gather: a negative entry is moved up by 50000, then the vector is made a column. -/
def colIdx (cols : (⟨S800000, .i32⟩ : BufTy).Contents (Elt F)) : (⟨S800000x1, .i32⟩ : BufTy).Contents (Elt F) :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 50000#32))) cols)

/-- One support, the scale applied to the messages: rows of P picked by the columns, each scaled by cw·vals[j],
    added at the row entries into zeros. -/
def support (P : (⟨S50000x256, .f32⟩ : BufTy).Contents (Elt F)) (cw : (⟨S_, .f32⟩ : BufTy).Contents (Elt F))
    (vals : (⟨S800000, .f32⟩ : BufTy).Contents (Elt F)) (rows cols : (⟨S800000, .i32⟩ : BufTy).Contents (Elt F)) :
    (⟨S50000x256, .f32⟩ : BufTy).Contents (Elt F) :=
  Host.scatterAdd scatter_S50000x256_S800000x1_S800000x256_1_0_0_1 (zerosN (F := F))
    (broadcastInDim S800000x1 ![0] bcast_S800000_S800000x1_0 rows)
    (mulf (broadcastInDim S800000x256 ![0, 1] bcast_S800000x1_S800000x256_0_1
        (broadcastInDim S800000x1 ![0] bcast_S800000_S800000x1_0 (mulf (broadcastInDim S800000 ![] bcast_S_S800000 cw) vals)))
      (Host.gather gather_S50000x256_S800000x1_S800000x256_1_0_n_n_0_1_1256 P (colIdx cols)))

/-- The result of the lines after the region, from the product array `v0` and the arguments rows, cols, vals, cw. -/
def result (v0 : (⟨S3x50000x256, .f32⟩ : BufTy).Contents (Elt F)) (a2 a3 : (⟨S3x800000, .i32⟩ : BufTy).Contents (Elt F))
    (a4 : (⟨S3x800000, .f32⟩ : BufTy).Contents (Elt F)) (a5 : (⟨S3, .f32⟩ : BufTy).Contents (Elt F)) :
    (⟨S50000x256, .f32⟩ : BufTy).Contents (Elt F) :=
  maximumf
    (addf (addf (addf (zerosN (F := F))
      (support
        (shapeCast _ (extractStridedSlice S1x50000x256 ![0, 0, 0] v0 slices_S3x50000x256_S1x50000x256_0_0_0) shapeCasts_S1x50000x256_S50000x256)
        (shapeCast _ (extractStridedSlice S1 ![0] a5 slices_S3_S1_0) shapeCasts_S1_S_)
        (shapeCast _ (extractStridedSlice S1x800000 ![0, 0] a4 slices_S3x800000_S1x800000_0_0) shapeCasts_S1x800000_S800000)
        (shapeCast _ (extractStridedSlice S1x800000 ![0, 0] a2 slices_S3x800000_S1x800000_0_0) shapeCasts_S1x800000_S800000)
        (shapeCast _ (extractStridedSlice S1x800000 ![0, 0] a3 slices_S3x800000_S1x800000_0_0) shapeCasts_S1x800000_S800000)))
      (support
        (shapeCast _ (extractStridedSlice S1x50000x256 ![1, 0, 0] v0 slices_S3x50000x256_S1x50000x256_1_0_0) shapeCasts_S1x50000x256_S50000x256)
        (shapeCast _ (extractStridedSlice S1 ![1] a5 slices_S3_S1_1) shapeCasts_S1_S_)
        (shapeCast _ (extractStridedSlice S1x800000 ![1, 0] a4 slices_S3x800000_S1x800000_1_0) shapeCasts_S1x800000_S800000)
        (shapeCast _ (extractStridedSlice S1x800000 ![1, 0] a2 slices_S3x800000_S1x800000_1_0) shapeCasts_S1x800000_S800000)
        (shapeCast _ (extractStridedSlice S1x800000 ![1, 0] a3 slices_S3x800000_S1x800000_1_0) shapeCasts_S1x800000_S800000)))
      (support
        (shapeCast _ (extractStridedSlice S1x50000x256 ![2, 0, 0] v0 slices_S3x50000x256_S1x50000x256_2_0_0) shapeCasts_S1x50000x256_S50000x256)
        (shapeCast _ (extractStridedSlice S1 ![2] a5 slices_S3_S1_2) shapeCasts_S1_S_)
        (shapeCast _ (extractStridedSlice S1x800000 ![2, 0] a4 slices_S3x800000_S1x800000_2_0) shapeCasts_S1x800000_S800000)
        (shapeCast _ (extractStridedSlice S1x800000 ![2, 0] a2 slices_S3x800000_S1x800000_2_0) shapeCasts_S1x800000_S800000)
        (shapeCast _ (extractStridedSlice S1x800000 ![2, 0] a3 slices_S3x800000_S1x800000_2_0) shapeCasts_S1x800000_S800000)))
    (zerosN (F := F))

variable (m : (ℓ : Loc nD τ sig) → Buf (Elt F) ℓ)

set_option maxRecDepth 16384 in
set_option maxHeartbeats 40000000 in
/-- The result buffer after the lines that follow the region: `result` of the product array as the region leaves it and
    of the arguments as launched. -/
theorem tail_eq (c : Dev nD) :
    Pipeline.afterTail₀ cfgs (dats m) 0 (V0 m) [hostOps1, hostOps1_1] c main_v80
      = result (F := F) ((dats m 0 c).arrAt 2 cfg0.N) (m ((c : Thread nD τ).loc main_arg2)) (m ((c : Thread nD τ).loc main_arg3))
          (m ((c : Thread nD τ).loc main_arg4)) (m ((c : Thread nD τ).loc main_arg5)) := by
  have e0 : Pipeline.withArrays spec0 c (V0 m c) (fun w => (dats m 0 c).arrAt w cfg0.N) (Proc.devRef .tc main_v0)
      = (dats m 0 c).arrAt 2 cfg0.N :=
    Pipeline.withArrays_arr spec0 launch0.win.arr_inj c _ _ 2
  have e2 : Pipeline.withArrays spec0 c (V0 m c) (fun w => (dats m 0 c).arrAt w cfg0.N) (Proc.devRef .tc main_arg2)
      = m ((c : Thread nD τ).loc main_arg2) :=
    Pipeline.withArrays_of_ne _ c (V0 m c) _ main_arg2 (by exact (by decide : ∀ w, Pipeline.arrRef spec0 w ≠ main_arg2))
  have e3 : Pipeline.withArrays spec0 c (V0 m c) (fun w => (dats m 0 c).arrAt w cfg0.N) (Proc.devRef .tc main_arg3)
      = m ((c : Thread nD τ).loc main_arg3) :=
    Pipeline.withArrays_of_ne _ c (V0 m c) _ main_arg3 (by exact (by decide : ∀ w, Pipeline.arrRef spec0 w ≠ main_arg3))
  have e4 : Pipeline.withArrays spec0 c (V0 m c) (fun w => (dats m 0 c).arrAt w cfg0.N) (Proc.devRef .tc main_arg4)
      = m ((c : Thread nD τ).loc main_arg4) :=
    Pipeline.withArrays_of_ne _ c (V0 m c) _ main_arg4 (by exact (by decide : ∀ w, Pipeline.arrRef spec0 w ≠ main_arg4))
  have e5 : Pipeline.withArrays spec0 c (V0 m c) (fun w => (dats m 0 c).arrAt w cfg0.N) (Proc.devRef .tc main_arg5)
      = m ((c : Thread nD τ).loc main_arg5) :=
    Pipeline.withArrays_of_ne _ c (V0 m c) _ main_arg5 (by exact (by decide : ∀ w, Pipeline.arrRef spec0 w ≠ main_arg5))
  rw [← e0, ← e2, ← e3, ← e4, ← e5]
  unfold Pipeline.afterTail₀
  generalize Pipeline.withArrays spec0 c (V0 m c) (fun w => (dats m 0 c).arrAt w cfg0.N) = Wv
  simp only [hostOps1, hostOps1_1, List.flatten_cons, List.flatten_nil, List.append_nil, List.cons_append, List.nil_append]
  after_results_simp <;> rfl

end Cert.KernelIdeal.Tail

end
-- ==== Proof.RefSide.lean ====
/-
  The reference's result as one function of its arguments, spelt over small named pieces. For each support s the
  reference multiplies x by slab s of W on the host, picks rows of the product by the column entries (a negative
  entry moved up by 50000), scales each picked row by vals[s, j], adds the rows at the row entries rows[s, j] into
  zeros, and only then scales the whole array by cw[s]; the three arrays are added in order onto zeros and the sum
  is joined with zero entry by entry.
-/
import proofs.«136003_j11579231830756_2_alg».proof.Proof.Gen.ReferenceIdeal.Run

noncomputable section

namespace Cert.ReferenceIdeal.RefSide

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- The 50000×256 array of zeros every accumulation starts from. -/
def zerosN : (⟨S50000x256, .f32⟩ : BufTy).Contents (Elt F) :=
  broadcastInDim S50000x256 ![] bcast_S_S50000x256 (constant S_ .f32 0x00000000#32)

/-- The start-index column of a gather: a negative entry is moved up by 50000, then the vector is made a column. -/
def colIdx (cols : (⟨S800000, .i32⟩ : BufTy).Contents (Elt F)) : (⟨S800000x1, .i32⟩ : BufTy).Contents (Elt F) :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 50000#32))) cols)

/-- One support, the scale applied after the accumulation: rows of P picked by the columns, each scaled by vals[j],
    added at the row entries into zeros; the whole array then scaled by cw. -/
def support (P : (⟨S50000x256, .f32⟩ : BufTy).Contents (Elt F)) (cw : (⟨S_, .f32⟩ : BufTy).Contents (Elt F))
    (vals : (⟨S800000, .f32⟩ : BufTy).Contents (Elt F)) (rows cols : (⟨S800000, .i32⟩ : BufTy).Contents (Elt F)) :
    (⟨S50000x256, .f32⟩ : BufTy).Contents (Elt F) :=
  mulf (broadcastInDim S50000x256 ![] bcast_S_S50000x256 cw)
    (Host.scatterAdd scatter_S50000x256_S800000x1_S800000x256_1_0_0_1 (zerosN (F := F))
      (broadcastInDim S800000x1 ![0] bcast_S800000_S800000x1_0 rows)
      (mulf (broadcastInDim S800000x256 ![0, 1] bcast_S800000x1_S800000x256_0_1
          (broadcastInDim S800000x1 ![0] bcast_S800000_S800000x1_0 vals))
        (Host.gather gather_S50000x256_S800000x1_S800000x256_1_0_n_n_0_1_1256 P (colIdx cols))))

/-- The reference's result, from its arguments x, W, rows, cols, vals, cw. -/
def result (a0 : (⟨S50000x512, .f32⟩ : BufTy).Contents (Elt F)) (a1 : (⟨S3x512x256, .f32⟩ : BufTy).Contents (Elt F))
    (a2 a3 : (⟨S3x800000, .i32⟩ : BufTy).Contents (Elt F))
    (a4 : (⟨S3x800000, .f32⟩ : BufTy).Contents (Elt F)) (a5 : (⟨S3, .f32⟩ : BufTy).Contents (Elt F)) :
    (⟨S50000x256, .f32⟩ : BufTy).Contents (Elt F) :=
  maximumf
    (addf (addf (addf (zerosN (F := F))
      (support
        (Host.dotGeneral dot_S50000x512_S512x256_S50000x256_1_0_0_1_n_n none a0
          (shapeCast _ (extractStridedSlice S1x512x256 ![0, 0, 0] a1 slices_S3x512x256_S1x512x256_0_0_0) shapeCasts_S1x512x256_S512x256))
        (shapeCast _ (extractStridedSlice S1 ![0] a5 slices_S3_S1_0) shapeCasts_S1_S_)
        (shapeCast _ (extractStridedSlice S1x800000 ![0, 0] a4 slices_S3x800000_S1x800000_0_0) shapeCasts_S1x800000_S800000)
        (shapeCast _ (extractStridedSlice S1x800000 ![0, 0] a2 slices_S3x800000_S1x800000_0_0) shapeCasts_S1x800000_S800000)
        (shapeCast _ (extractStridedSlice S1x800000 ![0, 0] a3 slices_S3x800000_S1x800000_0_0) shapeCasts_S1x800000_S800000)))
      (support
        (Host.dotGeneral dot_S50000x512_S512x256_S50000x256_1_0_0_1_n_n none a0
          (shapeCast _ (extractStridedSlice S1x512x256 ![1, 0, 0] a1 slices_S3x512x256_S1x512x256_1_0_0) shapeCasts_S1x512x256_S512x256))
        (shapeCast _ (extractStridedSlice S1 ![1] a5 slices_S3_S1_1) shapeCasts_S1_S_)
        (shapeCast _ (extractStridedSlice S1x800000 ![1, 0] a4 slices_S3x800000_S1x800000_1_0) shapeCasts_S1x800000_S800000)
        (shapeCast _ (extractStridedSlice S1x800000 ![1, 0] a2 slices_S3x800000_S1x800000_1_0) shapeCasts_S1x800000_S800000)
        (shapeCast _ (extractStridedSlice S1x800000 ![1, 0] a3 slices_S3x800000_S1x800000_1_0) shapeCasts_S1x800000_S800000)))
      (support
        (Host.dotGeneral dot_S50000x512_S512x256_S50000x256_1_0_0_1_n_n none a0
          (shapeCast _ (extractStridedSlice S1x512x256 ![2, 0, 0] a1 slices_S3x512x256_S1x512x256_2_0_0) shapeCasts_S1x512x256_S512x256))
        (shapeCast _ (extractStridedSlice S1 ![2] a5 slices_S3_S1_2) shapeCasts_S1_S_)
        (shapeCast _ (extractStridedSlice S1x800000 ![2, 0] a4 slices_S3x800000_S1x800000_2_0) shapeCasts_S1x800000_S800000)
        (shapeCast _ (extractStridedSlice S1x800000 ![2, 0] a2 slices_S3x800000_S1x800000_2_0) shapeCasts_S1x800000_S800000)
        (shapeCast _ (extractStridedSlice S1x800000 ![2, 0] a3 slices_S3x800000_S1x800000_2_0) shapeCasts_S1x800000_S800000)))
    (zerosN (F := F))

set_option maxRecDepth 16384 in
/-- The term the reference's run ends at is `result` of the launch contents of its arguments. -/
theorem res_eq (m : (ℓ : Loc nD τ sig) → Buf (Elt F) ℓ) (c : Dev nD) :
    res_main_v82 m c = result (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v82
  rfl

end Cert.ReferenceIdeal.RefSide

end
-- ==== Proof.LibScatterScale.lean ====
import Idealize.ShloMosaic.PureOps.Ideal
import Idealize.ShloMosaic.PureOps.Ideal.Laws

/-!
  Scaling an accumulating scatter of extended reals by a real constant.

  Multiplication of extended reals does not distribute over addition in general
  (`0 * (⊤ + ⊥)` against `0 * ⊤ + 0 * ⊥`, or `⊤ * (1 + -1)` against `⊤ * 1 + ⊤ * -1`),
  so `c * ∑ f = ∑ c * f` needs a hypothesis. The one used here: every number involved is
  a real, `IsReal`. The reals inside the extended reals are closed under `+`, `*` and
  finite sums, and on them the coercion `ℝ → EReal` is a ring homomorphism, so the identity
  is the one of `ℝ` pulled back through the coercion.
-/

namespace Cert.LibScatterScale

open Idealize.ShloMosaic
open scoped BigOperators

/-- An extended real that is (the coercion of) a real number: neither `⊤` nor `⊥`. -/
def IsReal (x : EReal) : Prop := ∃ r : ℝ, x = (r : EReal)

/-- The product of two reals is a real: `↑a * ↑b = ↑(a * b)`. -/
theorem IsReal.mul {x y : EReal} : IsReal x → IsReal y → IsReal (x * y) := by
  rintro ⟨a, rfl⟩ ⟨b, rfl⟩
  exact ⟨a * b, (EReal.coe_mul a b).symm⟩

/-- The sum of two reals is a real: `↑a + ↑b = ↑(a + b)`. -/
theorem IsReal.add {x y : EReal} : IsReal x → IsReal y → IsReal (x + y) := by
  rintro ⟨a, rfl⟩ ⟨b, rfl⟩
  exact ⟨a + b, (EReal.coe_add a b).symm⟩

/-- Zero is a real. -/
theorem IsReal.zero : IsReal (0 : EReal) := ⟨0, EReal.coe_zero.symm⟩

/-- A finite sum of reals is a real (induction on the index set, by `IsReal.add`). -/
theorem isReal_sum {ι : Type*} (s : Finset ι) (f : ι → EReal) (h : ∀ j ∈ s, IsReal (f j)) :
    IsReal (∑ j ∈ s, f j) := by
  classical
  induction s using Finset.induction_on with
  | empty => simpa using IsReal.zero
  | insert a s ha ih =>
    rw [Finset.sum_insert ha]
    exact IsReal.add (h a (Finset.mem_insert_self a s))
      (ih fun j hj => h j (Finset.mem_insert_of_mem hj))

/-- A real constant distributes over a finite sum of reals. Induction on the index set; at the
    step `c * (f a + S) = c * f a + c * S` all three of `c`, `f a`, `S` are reals, so both sides
    are the coercion of the same real by `mul_add` in `ℝ`. -/
theorem mul_sum_of_isReal {ι : Type*} (s : Finset ι) (c : EReal) (f : ι → EReal) (hc : IsReal c)
    (h : ∀ j ∈ s, IsReal (f j)) : c * ∑ j ∈ s, f j = ∑ j ∈ s, c * f j := by
  classical
  induction s using Finset.induction_on with
  | empty => simp
  | insert a s ha ih =>
    have hs : ∀ j ∈ s, IsReal (f j) := fun j hj => h j (Finset.mem_insert_of_mem hj)
    rw [Finset.sum_insert ha, Finset.sum_insert ha, ← ih hs]
    obtain ⟨r, rfl⟩ := hc
    obtain ⟨x, hx⟩ := h a (Finset.mem_insert_self a s)
    obtain ⟨y, hy⟩ := isReal_sum s f hs
    rw [hx, hy, ← EReal.coe_add, ← EReal.coe_mul, ← EReal.coe_mul, ← EReal.coe_mul,
      ← EReal.coe_add, mul_add]

/-- An accumulating scatter into zeros of the messages `(c * v j) * g j` is `c` times the
    accumulating scatter into zeros of `v j * g j`, when `c` and every `v j`, `g j` are reals:
    at each result element both sides are sums over the same set of update positions (those whose
    result index is that element), and the real constant moves out of the sum. -/
theorem hostScatterAdd_scale {s si su : Shape} (d : ScatterDims s si su) {w : Nat} (idx : IVec si w)
    (c : EReal) (v g : su.Idx → EReal) (hc : IsReal c) (hv : ∀ j, IsReal (v j))
    (hg : ∀ j, IsReal (g j)) (i : s.Idx) :
    Ideal.hostScatterAdd d (fun _ => (0 : EReal)) idx (fun j => (c * v j) * g j) i
      = c * Ideal.hostScatterAdd d (fun _ => (0 : EReal)) idx (fun j => v j * g j) i := by
  unfold Ideal.hostScatterAdd
  simp only [zero_add]
  rw [mul_sum_of_isReal _ c _ hc (fun j _ => (hv j).mul (hg j))]
  exact Finset.sum_congr rfl fun j _ => mul_assoc _ _ _

/-- An accumulating scatter of reals into reals is a real at every element. -/
theorem isReal_hostScatterAdd {s si su : Shape} (d : ScatterDims s si su) {w : Nat}
    (x : s.Idx → EReal) (idx : IVec si w) (upd : su.Idx → EReal) (hx : ∀ i, IsReal (x i))
    (hu : ∀ j, IsReal (upd j)) (i : s.Idx) : IsReal (Ideal.hostScatterAdd d x idx upd i) := by
  unfold Ideal.hostScatterAdd
  exact (hx i).add (isReal_sum _ _ fun j _ => hu j)

/-- A contraction of real operands onto a zero accumulator is a real at every element: it is a
    finite sum of products of reals. -/
theorem isReal_matmul_zero {sl sr so : Shape} (d : DotDims sl sr so) (lhs : sl.Idx → EReal)
    (rhs : sr.Idx → EReal) (hl : ∀ i, IsReal (lhs i)) (hr : ∀ i, IsReal (rhs i)) (j : so.Idx) :
    IsReal (Ideal.matmul d lhs rhs (fun _ => (0 : EReal)) j) := by
  unfold Ideal.matmul
  exact IsReal.zero.add (isReal_sum _ _ fun k _ => (hl _).mul (hr _))

/-- A contraction of real operands onto a real accumulator is a real at every element. -/
theorem isReal_matmul {sl sr so : Shape} (d : DotDims sl sr so) (lhs : sl.Idx → EReal)
    (rhs : sr.Idx → EReal) (acc : so.Idx → EReal) (hl : ∀ i, IsReal (lhs i))
    (hr : ∀ i, IsReal (rhs i)) (ha : ∀ j, IsReal (acc j)) (j : so.Idx) :
    IsReal (Ideal.matmul d lhs rhs acc j) := by
  unfold Ideal.matmul
  exact (ha j).add (isReal_sum _ _ fun k _ => (hl _).mul (hr _))

end Cert.LibScatterScale
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibSupportScale.lean ====
import Idealize.ShloMosaic.PureOps.Ideal
import Idealize.ShloMosaic.PureOps.Ideal.Laws
import Idealize.ShloMosaic.Lib.ValueIdx
import proofs.«136003_j11579231830756_2_alg».proof.Proof.LibScatterScale
import proofs.«136003_j11579231830756_2_alg».proof.Proof.LibRowReductions
import proofs.«136003_j11579231830756_2_alg».proof.Proof.LibMatProd

/-!
  One support's accumulating scatter, scaled before or after, and reals kept real by re-indexings.

  With `c` a scalar, `vals` a vector of M entries and `g` an M×D block, the messages
  `(c · vals p) · g (p, q)` scattered with accumulation into an N×D block of zeros give `c` times the
  scatter of the messages `vals p · g (p, q)`: at each result element both are sums over the same
  update positions, and a real constant moves out of a finite sum of reals. The array expressions are
  first read at an index (a scalar broadcast reads the scalar, a vector broadcast to a column and
  then across the columns reads its entry `p` at `(p, q)`, a pointwise product is the product of
  the entries), which turns both sides into the form of `hostScatterAdd_scale`.

  A re-indexing of an array of reals (a change of shape, a slice, a gather) is an array of reals, and
  so is a matrix product of arrays of reals.
-/

open scoped BigOperators

noncomputable section

namespace Cert.LibSupportScale

open Idealize.ShloMosaic Idealize.ShloMosaic.ValueIdx Cert.LibScatterScale

/-- A scalar broadcast into a vector of M entries reads the scalar at every index. -/
theorem bcastInDim_scalar_vec_apply {α : Type} {M : Nat} (x : (⟨0, ![]⟩ : Shape).Idx → α)
    (h : (⟨0, ![]⟩ : Shape).BroadcastsInDim ⟨1, ![M]⟩ ![]) (i : (⟨1, ![M]⟩ : Shape).Idx) :
    broadcastInDim ⟨1, ![M]⟩ ![] h x i = x ix0 :=
  broadcastInDim_apply _ h x _ _ fun ax => ax.elim0

/-- A scalar broadcast into an N×D block of the zero pattern is the block of zeros. -/
theorem zeros_eq {N D : Nat} (hz : (⟨0, ![]⟩ : Shape).BroadcastsInDim ⟨2, ![N, D]⟩ ![]) :
    broadcastInDim ⟨2, ![N, D]⟩ ![] hz (constant (F := Ideal) ⟨0, ![]⟩ .f32 0x00000000#32)
      = fun _ => (0 : EReal) := by
  funext i
  rw [Cert.Lib.RowReductions.bcastInDim_scalar_apply]
  exact Ideal.ofBits_zero_f32

/-- The scaled messages read at an index: `(c · vals p) · g (p, q)` at `(p, q)`. -/
theorem scaled_messages_eq {M D : Nat}
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, D]⟩ ![0, 1])
    (cw : FVec Ideal ⟨0, ![]⟩ .f32) (vals : FVec Ideal ⟨1, ![M]⟩ .f32) (g : FVec Ideal ⟨2, ![M, D]⟩ .f32) :
    mulf (broadcastInDim ⟨2, ![M, D]⟩ ![0, 1] h01 (broadcastInDim ⟨2, ![M, 1]⟩ ![0] h0
        (mulf (broadcastInDim ⟨1, ![M]⟩ ![] hS cw) vals))) g
      = fun j => (cw ix0 * vals (ix1 (n := M) (j 0))) * g j := by
  funext j
  obtain ⟨p, q, rfl⟩ : ∃ (p : Fin M) (q : Fin D), j = ix2 p q := ⟨j 0, j 1, eq_ix2 j⟩
  show _ = (cw ix0 * vals (ix1 p)) * g (ix2 p q)
  rw [mulf_apply, Cert.Lib.RowReductions.bcastInDim_cols_apply,
    Cert.Lib.RowReductions.bcastInDim_col_apply, mulf_apply, bcastInDim_scalar_vec_apply]

/-- The plain messages read at an index: `vals p · g (p, q)` at `(p, q)`. -/
theorem messages_eq {M D : Nat}
    (h0 : (⟨1, ![M]⟩ : Shape).BroadcastsInDim ⟨2, ![M, 1]⟩ ![0])
    (h01 : (⟨2, ![M, 1]⟩ : Shape).BroadcastsInDim ⟨2, ![M, D]⟩ ![0, 1])
    (vals : FVec Ideal ⟨1, ![M]⟩ .f32) (g : FVec Ideal ⟨2, ![M, D]⟩ .f32) :
    mulf (broadcastInDim ⟨2, ![M, D]⟩ ![0, 1] h01 (broadcastInDim ⟨2, ![M, 1]⟩ ![0] h0 vals)) g
      = fun j => vals (ix1 (n := M) (j 0)) * g j := by
  funext j
  obtain ⟨p, q, rfl⟩ : ∃ (p : Fin M) (q : Fin D), j = ix2 p q := ⟨j 0, j 1, eq_ix2 j⟩
  show _ = vals (ix1 p) * g (ix2 p q)
  rw [mulf_apply, Cert.Lib.RowReductions.bcastInDim_cols_apply,
    Cert.Lib.RowReductions.bcastInDim_col_apply]

/-- Scaling each message by `cw · vals p` before an accumulating scatter into zeros is scaling the
    scatter of the messages `vals p · g (p, q)` by `cw` afterwards, when every number is a real. -/
theorem support_eq {N M D : Nat} (d : ScatterDims ⟨2, ![N, D]⟩ ⟨2, ![M, 1]⟩ ⟨2, ![M, D]⟩)
    (hz : (⟨0, ![]⟩ : Shape).BroadcastsInDim ⟨2, ![N, D]⟩ ![]) (hS : (⟨0, ![]⟩ : Shape).BroadcastsInDim ⟨1, ![M]⟩ ![])
    (h0 : (⟨1, ![M]⟩ : Shape).BroadcastsInDim ⟨2, ![M, 1]⟩ ![0]) (h01 : (⟨2, ![M, 1]⟩ : Shape).BroadcastsInDim ⟨2, ![M, D]⟩ ![0, 1])
    (cw : FVec Ideal ⟨0, ![]⟩ .f32) (vals : FVec Ideal ⟨1, ![M]⟩ .f32) (g : FVec Ideal ⟨2, ![M, D]⟩ .f32) (R : IVec ⟨2, ![M, 1]⟩ 32)
    (hc : IsReal (cw ix0)) (hv : ∀ j, IsReal (vals j)) (hg : ∀ j, IsReal (g j)) :
    Host.scatterAdd (F := Ideal) d (broadcastInDim ⟨2, ![N, D]⟩ ![] hz (constant (F := Ideal) ⟨0, ![]⟩ .f32 0x00000000#32)) R
        (mulf (broadcastInDim ⟨2, ![M, D]⟩ ![0, 1] h01 (broadcastInDim ⟨2, ![M, 1]⟩ ![0] h0 (mulf (broadcastInDim ⟨1, ![M]⟩ ![] hS cw) vals))) g)
      = mulf (broadcastInDim ⟨2, ![N, D]⟩ ![] hz cw)
          (Host.scatterAdd (F := Ideal) d (broadcastInDim ⟨2, ![N, D]⟩ ![] hz (constant (F := Ideal) ⟨0, ![]⟩ .f32 0x00000000#32)) R
            (mulf (broadcastInDim ⟨2, ![M, D]⟩ ![0, 1] h01 (broadcastInDim ⟨2, ![M, 1]⟩ ![0] h0 vals)) g)) := by
  funext i
  rw [mulf_apply, Cert.Lib.RowReductions.bcastInDim_scalar_apply, zeros_eq hz,
    scaled_messages_eq hS h0 h01 cw vals g, messages_eq h0 h01 vals g]
  exact hostScatterAdd_scale d R (cw ix0) (fun j => vals (ix1 (n := M) (j 0))) g hc (fun j => hv _) hg i

/-- A change of shape of an array of reals is an array of reals: each entry is an entry of the operand. -/
theorem isReal_shapeCast {s t : Shape} (x : s.Idx → EReal) (h : s.ShapeCasts t) (hx : ∀ i, IsReal (x i))
    (j : t.Idx) : IsReal (shapeCast t x h j) := by
  unfold shapeCast
  exact hx _

/-- A slice of an array of reals is an array of reals: each entry is an entry of the operand. -/
theorem isReal_slice {s t : Shape} (off : Fin s.rank → Nat) (x : s.Idx → EReal) (h : s.Slices off t)
    (hx : ∀ i, IsReal (x i)) (j : t.Idx) : IsReal (extractStridedSlice t off x h j) := by
  unfold extractStridedSlice
  exact hx _

/-- A gather from an array of reals is an array of reals: each entry is an entry of the operand. -/
theorem isReal_gather {s si t : Shape} {w : Nat} (d : GatherDims s si t) (x : s.Idx → EReal) (idx : IVec si w)
    (hx : ∀ i, IsReal (x i)) (j : t.Idx) : IsReal (Host.gather d x idx j) := by
  unfold Host.gather
  exact hx _

/-- A matrix product of arrays of reals is an array of reals: each entry is a finite sum of products
    of reals. -/
theorem isReal_matProd {m k n : Nat} (A : (⟨2, ![m, k]⟩ : Shape).Idx → EReal) (B : (⟨2, ![k, n]⟩ : Shape).Idx → EReal)
    (hA : ∀ i, IsReal (A i)) (hB : ∀ i, IsReal (B i)) (i : (⟨2, ![m, n]⟩ : Shape).Idx) :
    IsReal (Cert.Lib.MatProd.matProd A B i) := by
  unfold Cert.Lib.MatProd.matProd
  exact isReal_sum _ _ fun c _ => (hA _).mul (hB _)

end Cert.LibSupportScale

end
-- ==== Proof.Bridge.lean ====
/-
  The two programs' results are one function of the arguments, when the float arguments are reals.

  Per support s both programs pick rows of the same matrix P = x · slab W s: the kernel slices it out of the stacked
  products, the reference multiplies on the host, and on the extended reals both are the sum over c of
  x(r, c) · W(s, c, q). The kernel scales each picked row by cw[s]·vals[s, j] and accumulates; the reference scales
  by vals[s, j], accumulates, and multiplies the accumulated array by cw[s]. A real factor moves across a finite sum
  of reals, so the two arrays are equal; x, W, vals and cw are reals by the precondition, and with them every entry
  of P and every picked row. Everything else — the zeros, the index columns, the order of the three additions, the
  final join with zero — is the same text in both programs.
-/
import proofs.«136003_j11579231830756_2_alg».proof.Proof.KI.Tail
import proofs.«136003_j11579231830756_2_alg».proof.Proof.RefSide
import proofs.«136003_j11579231830756_2_alg».proof.Proof.Spec
import proofs.«136003_j11579231830756_2_alg».proof.Proof.LibSupportScale

noncomputable section

namespace Cert.Bridge

open Idealize.ShloMosaic Idealize.ShloMosaic.ValueIdx
open Cert.Spec Cert.Lib.MatProd Cert.LibScatterScale Cert.LibSupportScale

/-- One support: scaling the messages by cw before the accumulation is scaling the accumulated array by cw, when cw,
    vals and the matrix the rows are picked from hold reals. -/
theorem support_eq_support (P : (⟨2, ![50000, 256]⟩ : Shape).Idx → EReal) (cw : (⟨0, ![]⟩ : Shape).Idx → EReal)
    (vals : (⟨1, ![800000]⟩ : Shape).Idx → EReal) (rows cols : IVec ⟨1, ![800000]⟩ 32)
    (hP : ∀ i, IsReal (P i)) (hc : IsReal (cw ix0)) (hv : ∀ j, IsReal (vals j)) :
    Cert.KernelIdeal.Tail.support (F := Ideal) P cw vals rows cols
      = Cert.ReferenceIdeal.RefSide.support (F := Ideal) P cw vals rows cols := by
  unfold Cert.KernelIdeal.Tail.support Cert.ReferenceIdeal.RefSide.support Cert.KernelIdeal.Tail.zerosN Cert.ReferenceIdeal.RefSide.zerosN
  refine (support_eq _ _ _ _ _ cw vals _ _ hc hv (fun j => isReal_gather _ P _ hP j)).trans ?_
  rfl

/-- The kernel's slab s of the stacked products is the product with slab s of W. -/
theorem kernel_P (a0 : (⟨2, ![50000, 512]⟩ : Shape).Idx → EReal) (a1 : (⟨3, ![3, 512, 256]⟩ : Shape).Idx → EReal) (s : Fin 3)
    (off : Fin 3 → Nat) (hoff : off = ![s.val, 0, 0])
    (hs : (⟨3, ![3, 50000, 256]⟩ : Shape).Slices off ⟨3, ![1, 50000, 256]⟩)
    (hc : (⟨3, ![1, 50000, 256]⟩ : Shape).ShapeCasts ⟨2, ![50000, 256]⟩) :
    shapeCast ⟨2, ![50000, 256]⟩ (extractStridedSlice ⟨3, ![1, 50000, 256]⟩ off (prod3 a0 a1) hs) hc = matProd a0 (slab a1 s) :=
  (dropUnit_slice_eq_slab _ s off hoff hs hc).trans (slab_prod3 a0 a1 s)

/-- The reference's host product of x with slab s of W is the same matrix. -/
theorem reference_P (a0 : (⟨2, ![50000, 512]⟩ : Shape).Idx → EReal) (a1 : (⟨3, ![3, 512, 256]⟩ : Shape).Idx → EReal) (s : Fin 3)
    (off : Fin 3 → Nat) (hoff : off = ![s.val, 0, 0])
    (hs : (⟨3, ![3, 512, 256]⟩ : Shape).Slices off ⟨3, ![1, 512, 256]⟩)
    (hc : (⟨3, ![1, 512, 256]⟩ : Shape).ShapeCasts ⟨2, ![512, 256]⟩) :
    Host.dotGeneral (F := Ideal) (φ₁ := .f32) (φ₂ := .f32) Cert.ReferenceIdeal.dot_S50000x512_S512x256_S50000x256_1_0_0_1_n_n none a0
        (shapeCast ⟨2, ![512, 256]⟩ (extractStridedSlice ⟨3, ![1, 512, 256]⟩ off a1 hs) hc)
      = matProd a0 (slab a1 s) := by
  rw [dropUnit_slice_eq_slab a1 s off hoff hs hc]
  exact dotGeneral_eq_matProd Cert.ReferenceIdeal.dot_S50000x512_S512x256_S50000x256_1_0_0_1_n_n rfl rfl rfl rfl rfl rfl none .single a0 (slab a1 s)

/-- THE BRIDGE: the lines after the region applied to the stacked products are the reference's function. -/
theorem result_eq (a0 : (⟨2, ![50000, 512]⟩ : Shape).Idx → EReal) (a1 : (⟨3, ![3, 512, 256]⟩ : Shape).Idx → EReal)
    (a2 a3 : IVec ⟨2, ![3, 800000]⟩ 32) (a4 : (⟨2, ![3, 800000]⟩ : Shape).Idx → EReal) (a5 : (⟨1, ![3]⟩ : Shape).Idx → EReal)
    (h0 : ∀ i, IsReal (a0 i)) (h1 : ∀ i, IsReal (a1 i)) (h4 : ∀ i, IsReal (a4 i)) (h5 : ∀ i, IsReal (a5 i)) :
    Cert.KernelIdeal.Tail.result (F := Ideal) (prod3 a0 a1) a2 a3 a4 a5
      = Cert.ReferenceIdeal.RefSide.result (F := Ideal) a0 a1 a2 a3 a4 a5 := by
  have hP : ∀ (s : Fin 3) i, IsReal (matProd a0 (slab a1 s) i) := fun s i =>
    isReal_matProd a0 (slab a1 s) h0 (fun j => h1 _) i
  unfold Cert.KernelIdeal.Tail.result Cert.ReferenceIdeal.RefSide.result
  rw [kernel_P a0 a1 0 ![0, 0, 0] rfl, kernel_P a0 a1 1 ![1, 0, 0] rfl, kernel_P a0 a1 2 ![2, 0, 0] rfl,
    reference_P a0 a1 0 ![0, 0, 0] rfl, reference_P a0 a1 1 ![1, 0, 0] rfl, reference_P a0 a1 2 ![2, 0, 0] rfl]
  rw [support_eq_support _ _ _ _ _ (hP 0) (isReal_shapeCast _ _ (fun j => isReal_slice _ a5 _ h5 j) _)
      (fun j => isReal_shapeCast _ _ (fun j => isReal_slice _ a4 _ h4 j) j),
    support_eq_support _ _ _ _ _ (hP 1) (isReal_shapeCast _ _ (fun j => isReal_slice _ a5 _ h5 j) _)
      (fun j => isReal_shapeCast _ _ (fun j => isReal_slice _ a4 _ h4 j) j),
    support_eq_support _ _ _ _ _ (hP 2) (isReal_shapeCast _ _ (fun j => isReal_slice _ a5 _ h5 j) _)
      (fun j => isReal_shapeCast _ _ (fun j => isReal_slice _ a4 _ h4 j) j)]
  rfl

end Cert.Bridge

end
-- ==== Proof.FiniteArgs.lean ====
import proofs.«136003_j11579231830756_2_alg».proof.Defs
import proofs.«136003_j11579231830756_2_alg».proof.Proof.Gen.Pre_finite_inputs
import proofs.«136003_j11579231830756_2_alg».proof.Proof.LibScatterScale
import Idealize.ShloMosaic.Lib.ReduceAll

/-!
  From the precondition to "every entry of each float argument is a real".

  The printed precondition is the conjunction, by `and` on `i1`, of four `jnp.all (|x| < +∞)`, one
  per float argument. The conjunction being 1 makes each conjunct 1; a reduction by `and` over all
  axes that is 1 had a 1 at every element; and an element's `|x| < +∞` at the extended reals, where
  `|x|` is `max x (-x)` and the pattern `0x7F800000` denotes `⊤`, fails at both infinities
  (`max ⊤ ⊥ = max ⊥ ⊤ = ⊤`), so `x` is the coercion of a real.
-/

noncomputable section

namespace Cert.KernelIdeal.FiniteArgs

open Idealize.ShloMosaic Idealize.SL.Sem Cert.LibScatterScale

/-- The rank-0 shape has one index. -/
instance subsingleton_S_ : Subsingleton Cert.Pre_finite_inputs.S_.Idx :=
  ⟨fun a b => funext fun d => d.elim0⟩

/-- The f32 pattern `0x7F800000` (exponent all ones, significand zero, sign clear) denotes `⊤`. -/
theorem ofBits_inf_f32 : Ideal.ofBits .f32 0x7F800000#32 = ⊤ := by simp [Ideal.ofBits, Ideal.ieee]

/-- The element fact: `|x| < +∞` compared true at the extended reals says `x` is a real. At `⊥` and at
    `⊤` the absolute value `max x (-x)` is `⊤`, which is not below `⊤`. -/
theorem isReal_of_abs_lt_inf (x : EReal)
    (h : Ideal.cmp .olt (max x (-x)) (Ideal.ofBits .f32 0x7F800000#32) = 1#1) : IsReal x := by
  rw [ofBits_inf_f32] at h
  unfold Ideal.cmp at h
  induction x using EReal.rec with
  | bot => simp at h
  | coe r => exact ⟨r, rfl⟩
  | top => simp at h

/-- One conjunct read back: a `jnp.all (|x| < +∞)` that is 1 makes every entry of `x` a real. The
    reduction is over all axes into the rank-0 shape, so every element reduces into its one result;
    the broadcast scalar constant reads `ofBits .f32 0x7F800000` at every index. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x)
          (broadcastInDim s ![] hb (constant Cert.Pre_finite_inputs.S_ .f32 0x7F800000#32)))
        (constantI Cert.Pre_finite_inputs.S_ 1 1#1) hr hu j = 1#1) (i : s.Idx) : IsReal (x i) :=
  isReal_of_abs_lt_inf (x i) (Host.reduce_andi_all _ _ hr hu j e i)

/-- THE PRECONDITION DECODED: `finite_inputs` all ones makes every entry of the four float arguments
    a real. -/
theorem real_args (x0 : FVec Ideal Cert.Pre_finite_inputs.S50000x512 .f32)
    (x1 : FVec Ideal Cert.Pre_finite_inputs.S3x512x256 .f32)
    (x2 x3 : IVec Cert.Pre_finite_inputs.S3x800000 32)
    (x4 : FVec Ideal Cert.Pre_finite_inputs.S3x800000 .f32)
    (x5 : FVec Ideal Cert.Pre_finite_inputs.S3 .f32)
    (h : Cert.Pre_finite_inputs.fn (F := Ideal) x0 x1 x2 x3 x4 x5 = fun _ => 1#1) :
    (∀ i, IsReal (x0 i)) ∧ (∀ i, IsReal (x1 i)) ∧ (∀ i, IsReal (x4 i)) ∧ (∀ i, IsReal (x5 i)) := by
  have e := congrFun h (fun a => a.elim0 : Cert.Pre_finite_inputs.S_.Idx)
  dsimp only [Cert.Pre_finite_inputs.fn, Cert.Pre_finite_inputs.fn_part1] at e
  unfold andi at e
  simp only [IntOp.andi_eq_one] at e
  obtain ⟨⟨⟨e0, e1⟩, e4⟩, e5⟩ := e
  exact ⟨all_real x0 _ _ _ _ e0, all_real x1 _ _ _ _ e1, all_real x4 _ _ _ _ e4,
    all_real x5 _ _ _ _ e5⟩

/-- The kernel's precondition at the ideal instance, decoded on device `c`: every entry of the four
    float argument arrays held in the launch memory is a real. -/
theorem real_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i)) :=
  real_args _ _ _ _ _ _ (h c)

end Cert.KernelIdeal.FiniteArgs

end
-- ==== Proof.lean ====
/-
  The certificate of a three-support graph convolution: per support a dense product x · W[s] computed by the kernel
  (2000 rows of x per grid point, the three products stacked), then on the host a row gather by the column entries, a
  scaling of the gathered rows and an accumulating scatter by the row entries, the three supports added and the sum
  joined with zero.

  The three frames: the kernel's run at any float instance (the body stores the three slabs of each output block; the
  92 lines after the region write only their own result buffers, so the arguments end as launched), and the
  reference's run read back. Nothing was rewritten by the ideal pass, so the idealized kernel is the kernel's own text.
  The value claim at the ideal instance: the region leaves the stacked products (each block of rows of a product is
  those rows of the whole product, and the 25 blocks cover the rows); the lines after it are one function of that
  array and of the arguments; the reference is the same function except that it multiplies by cw[s] after the
  accumulation instead of before — equal because the inputs are finite, so every number met is a real and a real
  factor moves across a finite sum of reals.
-/
import proofs.«136003_j11579231830756_2_alg».proof.Defs
import proofs.«136003_j11579231830756_2_alg».proof.Proof.Gen.Kernel
import proofs.«136003_j11579231830756_2_alg».proof.Proof.Gen.KernelIdeal
import proofs.«136003_j11579231830756_2_alg».proof.Proof.Gen.ReferenceIdeal
import proofs.«136003_j11579231830756_2_alg».proof.Proof.Gen.ReferenceIdeal.Run
import proofs.«136003_j11579231830756_2_alg».proof.Proof.Gen.Pre_finite_inputs
import proofs.«136003_j11579231830756_2_alg».proof.Proof.KI.Frame
import proofs.«136003_j11579231830756_2_alg».proof.Proof.KB.Frame
import proofs.«136003_j11579231830756_2_alg».proof.Proof.KI.Value
import proofs.«136003_j11579231830756_2_alg».proof.Proof.KI.Tail
import proofs.«136003_j11579231830756_2_alg».proof.Proof.RefSide
import proofs.«136003_j11579231830756_2_alg».proof.Proof.Bridge
import proofs.«136003_j11579231830756_2_alg».proof.Proof.FiniteArgs
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Fr.frame m ρ

/-- So does its text read at the ideal instance. -/
theorem frame_ki : Cert.frame_KernelIdeal := fun m ρ _ => Cert.KernelIdeal.Fr.frame m ρ

/-- The reference is host operations only: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance, from memories agreeing on the arguments, both programs end at the same array: the lines
    after the region applied to the stacked products x · W[s]. -/
theorem algebraic : Cert.algebraic_KernelIdeal_ReferenceIdeal := by
  intro m ρ m' ρ' hpre hagree
  refine ⟨fun c => Cert.KernelIdeal.Tail.result (F := Ideal)
      (Cert.Spec.prod3 (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Fr.run_named (F := Ideal) m ρ)
    obtain ⟨hv, hrest⟩ := h c
    refine ⟨hv.trans ((Cert.KernelIdeal.Tail.tail_eq m c).trans ?_), hrest⟩
    rw [Cert.KernelIdeal.Val.final2 m c]
  · refine (θ_run Cert.ReferenceIdeal.defs _ _).mono (fun r h c => ⟨(h c).1.trans ?_, (h c).2⟩)
      (Cert.ReferenceIdeal.Value.run (F := Ideal) m' ρ')
    obtain ⟨h0, h1, h4, h5⟩ := Cert.KernelIdeal.FiniteArgs.real_of_pre m hpre c
    obtain ⟨e0, e1, e2, e3, e4, e5⟩ := hagree c
    rw [Cert.ReferenceIdeal.RefSide.res_eq m' c, e0, e1, e2, e3, e4, e5]
    exact (Cert.Bridge.result_eq _ _ _ _ _ _ h0 h1 h4 h5).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
